-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v94)) (v3 : (c : Dev Cert.KernelIdeal.nD) → Buf (Elt Ideal) ((c.tc : Thread Cert.KernelIdeal.nD Cert.KernelIdeal.τ).loc Cert.KernelIdeal.main_v93)) (v4 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v94) = v2 c
          ∧ r.2.mem ((c.tc : Thread Cert.KernelIdeal.nD Cert.KernelIdeal.τ).loc Cert.KernelIdeal.main_v93) = v3 c
          ∧ r.2.mem ((c.tc : Thread Cert.KernelIdeal.nD Cert.KernelIdeal.τ).loc Cert.KernelIdeal.main_v61) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64 : Shape := ⟨2, ![64, 64]⟩
abbrev S64x512 : Shape := ⟨2, ![64, 512]⟩
abbrev S2048x512 : Shape := ⟨2, ![2048, 512]⟩
abbrev S1536x64 : Shape := ⟨2, ![1536, 64]⟩
abbrev S1536x512 : Shape := ⟨2, ![1536, 512]⟩
abbrev S1536 : Shape := ⟨1, ![1536]⟩
abbrev S1x512 : Shape := ⟨2, ![1, 512]⟩
abbrev S1 : Shape := ⟨1, ![1]⟩
abbrev S512x1024 : Shape := ⟨2, ![512, 1024]⟩
abbrev S512 : Shape := ⟨1, ![512]⟩
abbrev S512x512 : Shape := ⟨2, ![512, 512]⟩
abbrev S64 : Shape := ⟨1, ![64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S2048x512 : S_.BroadcastsInDim S2048x512 (![] : Fin 0 → Fin S2048x512.rank)
  reducesTo_S2048x512_S_d0_1 : S2048x512.ReducesTo [0, 1] S_
  bcast_S_S1536x64 : S_.BroadcastsInDim S1536x64 (![] : Fin 0 → Fin S1536x64.rank)
  reducesTo_S1536x64_S_d0_1 : S1536x64.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg18 : FVec F S64 .f32) (main_v83 : IVec S_ 1) (main_v84 : FVec F S64x512 .f32) (main_cst_32 : FVec F S_ .f32) : IVec S_ 1 :=
  let main_v85 : FVec F S64x512 .f32 := broadcastInDim S64x512 ![] bcast_S_S64x512 main_cst_32
  let main_v86 : IVec S64x512 1 := cmpf .olt main_v84 main_v85
  let main_c_33 : IVec S_ 1 := constantI S_ 1 1#1
  let main_v87 : IVec S_ 1 := (fun x v => Host.reduce IntOp.andi x v reducesTo_S64x512_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg14 : FVec F S512x512 .f32) (main_arg15 : FVec F S512 .f32) (main_arg16 : FVec F S512x512 .f32) (main_arg17 : FVec F S64x512 .f32) (main_arg18 : FVec F S64 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S64x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512 .f32) (main_arg12 : FVec F S1x512 .f32) (main_arg13 : FVec F S1 .f32) (main_arg14 : FVec F S512x512 .f32) (main_arg15 : FVec F S512 .f32) (main_arg16 : FVec F S512x512 .f32) (main_arg17 : FVec F S64x512 .f32) (main_arg18 : FVec F S64 .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1x512 .f32 := Host.absf main_arg12
  let main_cst_22 : FVec F S_ .f32 := constant S_ .f32 0x7F800000#32
  let main_v60 : FVec F S1x512 .f32 := broadcastInDim S1x512 ![] bcast_S_S1x512 main_cst_22
  let main_v61 : IVec S1x512 1 := cmpf .olt main_v59 main_v60
  let main_c_23 : IVec S_ 1 := constantI S_ 1 1#1
  let main_v62 : IVec S_ 1 := (fun x v => Host.reduce IntOp.andi x v reducesTo_S1x512_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_arg18 main_v63 main_v67

def fn_part2 {F : FTy → Type} [FloatOps F] (main_arg7 : FVec F S1536 .f32) (main_arg8 : FVec F S1x512 .f32) (main_arg9 : FVec F S1 .f32) (main_arg10 : FVec F S512x1024 .f32) (main_arg11 : FVec F S512 .f32) (main_arg12 : FVec F S1x512 .f32) (main_arg13 : FVec F S1 .f32) (main_arg14 : FVec F S512x512 .f32) (main_arg15 : FVec F S512 .f32) (main_arg16 : FVec F S512x512 .f32) (main_arg17 : FVec F S64x512 .f32) (main_arg18 : FVec F S64 .f32) (main_v33 : IVec S_ 1) : IVec S_ 1 :=
  let main_v34 : FVec F S1536 .f32 := Host.absf main_arg7
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1x512 .f32 := Host.absf main_arg8
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_arg11 main_arg12 main_arg13 main_arg14 main_arg15 main_arg16 main_arg17 main_arg18 main_v48 main_v49 main_v50

def fn_part1 {F : FTy → Type} [FloatOps F] (main_arg4 : FVec F S1536x64 .f32) (main_arg5 : FVec F S1536x512 .f32) (main_arg6 : FVec F S1536 .f32) (main_arg7 : FVec F S1536 .f32) (main_arg8 : FVec F S1x512 .f32) (main_arg9 : FVec F S1 .f32) (main_arg10 : FVec F S512x1024 .f32) (main_arg11 : FVec F S512 .f32) (main_arg12 : FVec F S1x512 .f32) (main_arg13 : FVec F S1 .f32) (main_arg14 : FVec F S512x512 .f32) (main_arg15 : FVec F S512 .f32) (main_arg16 : FVec F S512x512 .f32) (main_arg17 : FVec F S64x512 .f32) (main_arg18 : FVec F S64 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S1536x64 .f32 := Host.absf main_arg4
  let main_cst_6 : FVec F S_ .f32 := constant S_ .f32 0x7F800000#32
  let main_v20 : FVec F S1536x64 .f32 := broadcastInDim S1536x64 ![] bcast_S_S1536x64 main_cst_6
  let main_v21 : IVec S1536x64 1 := cmpf .olt main_v19 main_v20
  let main_c_7 : IVec S_ 1 := constantI S_ 1 1#1
  let main_v22 : IVec S_ 1 := (fun x v => Host.reduce IntOp.andi x v reducesTo_S1536x64_S_d0_1 h_S_) main_v21 main_c_7
  let main_v23 : IVec S_ 1 := andi main_v18 main_v22
  let main_v24 : FVec F S1536x512 .f32 := Host.absf main_arg5
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S64x64 .f32) (main_arg1 : FVec F S64x512 .f32) (main_arg2 : FVec F S64x512 .f32) (main_arg3 : FVec F S2048x512 .f32) (main_arg4 : FVec F S1536x64 .f32) (main_arg5 : FVec F S1536x512 .f32) (main_arg6 : FVec F S1536 .f32) (main_arg7 : FVec F S1536 .f32) (main_arg8 : FVec F S1x512 .f32) (main_arg9 : FVec F S1 .f32) (main_arg10 : FVec F S512x1024 .f32) (main_arg11 : FVec F S512 .f32) (main_arg12 : FVec F S1x512 .f32) (main_arg13 : FVec F S1 .f32) (main_arg14 : FVec F S512x512 .f32) (main_arg15 : FVec F S512 .f32) (main_arg16 : FVec F S512x512 .f32) (main_arg17 : FVec F S64x512 .f32) (main_arg18 : FVec F S64 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S64x64 : Shape := ⟨2, ![64, 64]⟩
abbrev S64x512 : Shape := ⟨2, ![64, 512]⟩
abbrev S2048x512 : Shape := ⟨2, ![2048, 512]⟩
abbrev S1536x64 : Shape := ⟨2, ![1536, 64]⟩
abbrev S1536x512 : Shape := ⟨2, ![1536, 512]⟩
abbrev S1536 : Shape := ⟨1, ![1536]⟩
abbrev S1x512 : Shape := ⟨2, ![1, 512]⟩
abbrev S1 : Shape := ⟨1, ![1]⟩
abbrev S512x1024 : Shape := ⟨2, ![512, 1024]⟩
abbrev S512 : Shape := ⟨1, ![512]⟩
abbrev S512x512 : Shape := ⟨2, ![512, 512]⟩
abbrev S64 : Shape := ⟨1, ![64]⟩
abbrev S64x1536 : Shape := ⟨2, ![64, 1536]⟩
abbrev S1x1536 : Shape := ⟨2, ![1, 1536]⟩
abbrev S512x1536 : Shape := ⟨2, ![512, 1536]⟩
abbrev S_ : Shape := ⟨0, ![]⟩
abbrev S512x1 : Shape := ⟨2, ![512, 1]⟩
abbrev S64x1 : Shape := ⟨2, ![64, 1]⟩
abbrev S1x1 : Shape := ⟨2, ![1, 1]⟩
abbrev S64x512x4 : Shape := ⟨3, ![64, 512, 4]⟩
abbrev S64x2048 : Shape := ⟨2, ![64, 2048]⟩
abbrev S64x256 : Shape := ⟨2, ![64, 256]⟩
abbrev S256x512 : Shape := ⟨2, ![256, 512]⟩
abbrev S1x1x512 : Shape := ⟨3, ![1, 1, 512]⟩
abbrev S8x256x512 : Shape := ⟨3, ![8, 256, 512]⟩
abbrev S8x256 : Shape := ⟨2, ![8, 256]⟩
abbrev S8x256x1 : Shape := ⟨3, ![8, 256, 1]⟩
abbrev S1x256x512 : Shape := ⟨3, ![1, 256, 512]⟩
abbrev S512x64 : Shape := ⟨2, ![512, 64]⟩
abbrev S1x64 : Shape := ⟨2, ![1, 64]⟩

abbrev nBuf : Space → Nat
  | .hbm => 127
  | .vmem => 10
  | .smem => 0
  | _ => 0

abbrev bufTy : (tb : Table) → Fin (tcTables nBuf tb) → BufTy
  | .hbm, ⟨0, _⟩ => ⟨S64x64, .f32⟩
  | .hbm, ⟨1, _⟩ => ⟨S64x512, .f32⟩
  | .hbm, ⟨2, _⟩ => ⟨S64x512, .f32⟩
  | .hbm, ⟨3, _⟩ => ⟨S2048x512, .f32⟩
  | .hbm, ⟨4, _⟩ => ⟨S1536x64, .f32⟩
  | .hbm, ⟨5, _⟩ => ⟨S1536x512, .f32⟩
  | .hbm, ⟨6, _⟩ => ⟨S1536, .f32⟩
  | .hbm, ⟨7, _⟩ => ⟨S1536, .f32⟩
  | .hbm, ⟨8, _⟩ => ⟨S1x512, .f32⟩
  | .hbm, ⟨9, _⟩ => ⟨S1, .f32⟩
  | .hbm, ⟨10, _⟩ => ⟨S512x1024, .f32⟩
  | .hbm, ⟨11, _⟩ => ⟨S512, .f32⟩
  | .hbm, ⟨12, _⟩ => ⟨S1x512, .f32⟩
  | .hbm, ⟨13, _⟩ => ⟨S1, .f32⟩
  | .hbm, ⟨14, _⟩ => ⟨S512x512, .f32⟩
  | .hbm, ⟨15, _⟩ => ⟨S512, .f32⟩
  | .hbm, ⟨16, _⟩ => ⟨S512x512, .f32⟩
  | .hbm, ⟨17, _⟩ => ⟨S64x512, .f32⟩
  | .hbm, ⟨18, _⟩ => ⟨S64, .f32⟩
  | .hbm, ⟨19, _⟩ => ⟨S64x1536, .f32⟩
  | .hbm, ⟨20, _⟩ => ⟨S64x1536, .f32⟩
  | .hbm, ⟨21, _⟩ => ⟨S1x1536, .f32⟩
  | .hbm, ⟨22, _⟩ => ⟨S64x1536, .f32⟩
  | .hbm, ⟨23, _⟩ => ⟨S64x1536, .f32⟩
  | .hbm, ⟨24, _⟩ => ⟨S512x1536, .f32⟩
  | .hbm, ⟨25, _⟩ => ⟨S64x1536, .f32⟩
  | .hbm, ⟨26, _⟩ => ⟨S1x1536, .f32⟩
  | .hbm, ⟨27, _⟩ => ⟨S64x1536, .f32⟩
  | .hbm, ⟨28, _⟩ => ⟨S64x1536, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S_, .f32⟩
  | .hbm, ⟨42, _⟩ => ⟨S64x512, .f32⟩
  | .hbm, ⟨43, _⟩ => ⟨S64x512, .f32⟩
  | .hbm, ⟨44, _⟩ => ⟨S64x512, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S_, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S64x512, .f32⟩
  | .hbm, ⟨55, _⟩ => ⟨S64x512, .f32⟩
  | .hbm, ⟨56, _⟩ => ⟨S_, .f32⟩
  | .hbm, ⟨57, _⟩ => ⟨S64x512, .f32⟩
  | .hbm, ⟨58, _⟩ => ⟨S64x512, .f32⟩
  | .hbm, ⟨59, _⟩ => ⟨S64x512, .f32⟩
  | .hbm, ⟨60, _⟩ => ⟨S64x512, .f32⟩
  | .hbm, ⟨61, _⟩ => ⟨S64x512, .f32⟩
  | .hbm, ⟨62, _⟩ => ⟨S512x1, .f32⟩
  | .hbm, ⟨63, _⟩ => ⟨S64x1, .f32⟩
  | .hbm, ⟨64, _⟩ => ⟨S1x1, .f32⟩
  | .hbm, ⟨65, _⟩ => ⟨S64x1, .f32⟩
  | .hbm, ⟨66, _⟩ => ⟨S64x1, .f32⟩
  | .hbm, ⟨67, _⟩ => ⟨S64x1, .f32⟩
  | .hbm, ⟨68, _⟩ => ⟨S64x1, .f32⟩
  | .hbm, ⟨69, _⟩ => ⟨S_, .f32⟩
  | .hbm, ⟨70, _⟩ => ⟨S64x1, .f32⟩
  | .hbm, ⟨71, _⟩ => ⟨S64x1, .f32⟩
  | .hbm, ⟨72, _⟩ => ⟨S_, .f32⟩
  | .hbm, ⟨73, _⟩ => ⟨S64x1, .f32⟩
  | .hbm, ⟨74, _⟩ => ⟨S64x1, .f32⟩
  | .hbm, ⟨75, _⟩ => ⟨S64x1, .f32⟩
  | .hbm, ⟨76, _⟩ => ⟨S64x512x4, .f32⟩
  | .hbm, ⟨77, _⟩ => ⟨S64x2048, .f32⟩
  | .hbm, ⟨78, _⟩ => ⟨S512x512, .f32⟩
  | .hbm, ⟨79, _⟩ => ⟨S512x512, .f32⟩
  | .hbm, ⟨80, _⟩ => ⟨S_, .f32⟩
  | .hbm, ⟨81, _⟩ => ⟨S512, .f32⟩
  | .hbm, ⟨82, _⟩ => ⟨S1x512, .f32⟩
  | .hbm, ⟨83, _⟩ => ⟨S512x512, .f32⟩
  | .hbm, ⟨84, _⟩ => ⟨S1x512, .f32⟩
  | .hbm, ⟨85, _⟩ => ⟨S64x2048, .f32⟩
  | .hbm, ⟨86, _⟩ => ⟨S_, .f32⟩
  | .hbm, ⟨87, _⟩ => ⟨S64x2048, .f32⟩
  | .hbm, ⟨88, _⟩ => ⟨S64x2048, .f32⟩
  | .hbm, ⟨89, _⟩ => ⟨S_, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x1, .f32⟩
  | .hbm, ⟨95, _⟩ => ⟨S64x2048, .f32⟩
  | .hbm, ⟨96, _⟩ => ⟨S64x2048, .f32⟩
  | .hbm, ⟨97, _⟩ => ⟨S64x2048, .f32⟩
  | .hbm, ⟨98, _⟩ => ⟨S_, .f32⟩
  | .hbm, ⟨99, _⟩ => ⟨S64, .f32⟩
  | .hbm, ⟨100, _⟩ => ⟨S64x1, .f32⟩
  | .hbm, ⟨101, _⟩ => ⟨S64x2048, .f32⟩
  | .hbm, ⟨102, _⟩ => ⟨S64x2048, .f32⟩
  | .hbm, ⟨103, _⟩ => ⟨S64x512, .f32⟩
  | .hbm, ⟨104, _⟩ => ⟨S512x512, .f32⟩
  | .hbm, ⟨105, _⟩ => ⟨S64x512, .f32⟩
  | .hbm, ⟨106, _⟩ => ⟨S1x512, .f32⟩
  | .hbm, ⟨107, _⟩ => ⟨S64x512, .f32⟩
  | .hbm, ⟨108, _⟩ => ⟨S64x512, .f32⟩
  | .hbm, ⟨109, _⟩ => ⟨S512x512, .f32⟩
  | .hbm, ⟨110, _⟩ => ⟨S64x512, .f32⟩
  | .hbm, ⟨111, _⟩ => ⟨S64x512, .f32⟩
  | .hbm, ⟨112, _⟩ => ⟨S64x512, .f32⟩
  | .hbm, ⟨113, _⟩ => ⟨S512x64, .f32⟩
  | .hbm, ⟨114, _⟩ => ⟨S64x64, .f32⟩
  | .hbm, ⟨115, _⟩ => ⟨S1x64, .f32⟩
  | .hbm, ⟨116, _⟩ => ⟨S64x64, .f32⟩
  | .hbm, ⟨117, _⟩ => ⟨S64x64, .f32⟩
  | .hbm, ⟨118, _⟩ => ⟨S64x64, .f32⟩
  | .hbm, ⟨119, _⟩ => ⟨S64x64, .f32⟩
  | .hbm, ⟨120, _⟩ => ⟨S_, .f32⟩
  | .hbm, ⟨121, _⟩ => ⟨S64x64, .f32⟩
  | .hbm, ⟨122, _⟩ => ⟨S64x64, .f32⟩
  | .hbm, ⟨123, _⟩ => ⟨S_, .f32⟩
  | .hbm, ⟨124, _⟩ => ⟨S64x64, .f32⟩
  | .hbm, ⟨125, _⟩ => ⟨S64x64, .f32⟩
  | .hbm, ⟨126, _⟩ => ⟨S64x64, .f32⟩
  | .local _ .vmem, ⟨0, _⟩ => ⟨S64x256, .f32⟩
  | .local _ .vmem, ⟨1, _⟩ => ⟨S64x256, .f32⟩
  | .local _ .vmem, ⟨2, _⟩ => ⟨S256x512, .f32⟩
  | .local _ .vmem, ⟨3, _⟩ => ⟨S256x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S64x256, .f32⟩
  | .local _ .vmem, ⟨9, _⟩ => ⟨S64x256, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_10 : Ref sig .tc := ⟨.hbm, 120, rfl⟩
abbrev main_v90 : Ref sig .tc := ⟨.hbm, 121, rfl⟩
abbrev main_v91 : Ref sig .tc := ⟨.hbm, 122, rfl⟩
abbrev main_cst_11 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v24 : BitVec 32 := Scalar.addi c0_i32 c8_i32
  let c1_i32 : BitVec 32 := 1#32
  ⟨c0_i32, v24, c1_i32⟩
def k0_mult1 (k0_t1 : Fin k0_t1_loop.trips) : BitVec 32 :=
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v25 : BitVec 32 := Scalar.muli arg8 c1_i32_10
  let v26 : BitVec 32 := Scalar.addi c0_i32_11 v25
  let c8_i32_12 : BitVec 32 := 8#32
  let v27 : BitVec 32 := Scalar.muli v26 c8_i32_12
  v27
def k0_off1 (k0_t1 : Fin k0_t1_loop.trips) : Fin 2 → Nat :=
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v25 : BitVec 32 := Scalar.muli arg8 c1_i32_10
  let v26 : BitVec 32 := Scalar.addi c0_i32_11 v25
  let c8_i32_12 : BitVec 32 := 8#32
  let v27 : BitVec 32 := Scalar.muli v26 c8_i32_12
  let v28 : BitVec 32 := v27
  let v29 : Index := Scalar.indexCast v28
  let c0_13 : Index := 0#32
  ![v29.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1536x64_S64x1536_1_0 : S1536x64.Transposes [1, 0] S64x1536
  bcast_S1536_S1x1536_1 : S1536.BroadcastsInDim S1x1536 (![1] : Fin 1 → Fin S1x1536.rank)
  bcast_S1x1536_S64x1536_0_1 : S1x1536.BroadcastsInDim S64x1536 (![0, 1] : Fin 2 → Fin S64x1536.rank)
  transposes_S1536x512_S512x1536_1_0 : S1536x512.Transposes [1, 0] S512x1536
  slices_S64x1536_S64x512_0_0 : S64x1536.Slices ![0, 0] S64x512
  slices_S64x1536_S64x512_0_512 : S64x1536.Slices ![0, 512] S64x512
  slices_S64x1536_S64x512_0_1024 : S64x1536.Slices ![0, 1024] S64x512
  bcast_S_S64x512 : S_.BroadcastsInDim S64x512 (![] : Fin 0 → Fin S64x512.rank)
  transposes_S1x512_S512x1_1_0 : S1x512.Transposes [1, 0] S512x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  bcast_S64x512_S64x512x4_0_1 : S64x512.BroadcastsInDim S64x512x4 (![0, 1] : Fin 2 → Fin S64x512x4.rank)
  shapeCasts_S64x512x4_S64x2048 : S64x512x4.ShapeCasts S64x2048
  slices_S512x1024_S512x512_0_0 : S512x1024.Slices ![0, 0] S512x512
  slices_S512x1024_S512x512_0_512 : S512x1024.Slices ![0, 512] S512x512
  reducesTo_S512x512_S512_d1 : S512x512.ReducesTo [1] S512
  h_S_ : 0 < S_.numel
  shapeCasts_S512_S1x512 : S512.ShapeCasts S1x512
  transposes_S512x512_S512x512_1_0 : S512x512.Transposes [1, 0] S512x512
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S1x512_S512 : S1x512.ShapeCasts S512
  shapeCasts_S512_S1x1x512 : S512.ShapeCasts S1x1x512
  shapeCasts_S1x1x512_S1x1x512 : S1x1x512.ShapeCasts S1x1x512
  broadcasts_S1x1x512_S8x256x512 : S1x1x512.Broadcasts S8x256x512
  h_S8x256 : 0 < S8x256.numel
  shapeCasts_S8x256_S8x256 : S8x256.ShapeCasts S8x256
  shapeCasts_S8x256_S8x256x1 : S8x256.ShapeCasts S8x256x1
  broadcasts_S8x256x1_S8x256x512 : S8x256x1.Broadcasts S8x256x512
  shapeCasts_S256x512_S1x256x512 : S256x512.ShapeCasts S1x256x512
  broadcasts_S1x256x512_S8x256x512 : S1x256x512.Broadcasts S8x256x512
  reduces_S8x256x512_S8x256 : S8x256x512.Reduces [2] S8x256
  shapeCasts_S1_S_ : S1.ShapeCasts S_
  bcast_S_S64x2048 : S_.BroadcastsInDim S64x2048 (![] : Fin 0 → Fin S64x2048.rank)
  reducesTo_S64x2048_S64_d1 : S64x2048.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  transposes_S64x512_S512x64_1_0 : S64x512.Transposes [1, 0] S512x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  dot_S64x64_S64x1536_S64x1536_1_0_0_1_n_n_wf : DotDims.WF S64x64 S64x1536 S64x1536 [1] [0] [0] [1] [] []
  dot_S64x512_S512x1536_S64x1536_1_0_0_1_n_n_wf : DotDims.WF S64x512 S512x1536 S64x1536 [1] [0] [0] [1] [] []
  dot_S64x512_S512x1_S64x1_1_0_0_1_n_n_wf : DotDims.WF S64x512 S512x1 S64x1 [1] [0] [0] [1] [] []
  dot_S256x512_S512x512_S256x512_1_0_0_1_n_n_wf : DotDims.WF S256x512 S512x512 S256x512 [1] [0] [0] [1] [] []
  dot_S64x2048_S2048x512_S64x512_1_0_0_1_n_n_wf : DotDims.WF S64x2048 S2048x512 S64x512 [1] [0] [0] [1] [] []
  dot_S64x512_S512x512_S64x512_1_0_0_1_n_n_wf : DotDims.WF S64x512 S512x512 S64x512 [1] [0] [0] [1] [] []
  dot_S64x512_S512x64_S64x64_1_0_0_1_n_n_wf : DotDims.WF S64x512 S512x64 S64x64 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x256.size a ≤ S64x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x2048.size a
  hwx0_0 : ∀ i : grid0.Coords, EltTy.bits .f32 = 32 ∨ (Rect.block (s := S64x2048) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x512.size a
  hwx0_1 : ∀ i : grid0.Coords, EltTy.bits .f32 = 32 ∨ (Rect.block (s := S2048x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x2048.size a
  hwx0_6 : ∀ i : grid0.Coords, EltTy.bits .f32 = 32 ∨ (Rect.block (s := S64x2048) S64x256.size (cc0_transform_6 i) (hinb0_6 i)).WholeWords (EltTy.packing .f32)

variable [Facts₀]

def dot_S64x64_S64x1536_S64x1536_1_0_0_1_n_n : DotDims S64x64 S64x1536 S64x1536 where
  lhsContracting := [1]
  rhsContracting := [0]
  lhsNonContracting := [0]
  rhsNonContracting := [1]
  lhsBatch := []
  rhsBatch := []
  wf := dot_S64x64_S64x1536_S64x1536_1_0_0_1_n_n_wf
def dot_S64x512_S512x1536_S64x1536_1_0_0_1_n_n : DotDims S64x512 S512x1536 S64x1536 where
  lhsContracting := [1]
  rhsContracting := [0]
  lhsNonContracting := [0]
  rhsNonContracting := [1]
  lhsBatch := []
  rhsBatch := []
  wf := dot_S64x512_S512x1536_S64x1536_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf

abbrev win0_0 : Pipeline.Window sig grid0 :=
  Pipeline.Window.ofSpec (Memref.whole main_v51) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x64 : Shape := ⟨2, ![64, 64]⟩
abbrev S64x512 : Shape := ⟨2, ![64, 512]⟩
abbrev S2048x512 : Shape := ⟨2, ![2048, 512]⟩
abbrev S1536x64 : Shape := ⟨2, ![1536, 64]⟩
abbrev S1536x512 : Shape := ⟨2, ![1536, 512]⟩
abbrev S1536 : Shape := ⟨1, ![1536]⟩
abbrev S1x512 : Shape := ⟨2, ![1, 512]⟩
abbrev S1 : Shape := ⟨1, ![1]⟩
abbrev S512x1024 : Shape := ⟨2, ![512, 1024]⟩
abbrev S512 : Shape := ⟨1, ![512]⟩
abbrev S512x512 : Shape := ⟨2, ![512, 512]⟩
abbrev S64 : Shape := ⟨1, ![64]⟩
abbrev S64x1536 : Shape := ⟨2, ![64, 1536]⟩
abbrev S1x1536 : Shape := ⟨2, ![1, 1536]⟩
abbrev S512x1536 : Shape := ⟨2, ![512, 1536]⟩
abbrev S_ : Shape := ⟨0, ![]⟩
abbrev S512x1 : Shape := ⟨2, ![512, 1]⟩
abbrev S64x1 : Shape := ⟨2, ![64, 1]⟩
abbrev S1x1 : Shape := ⟨2, ![1, 1]⟩
abbrev S64x512x1 : Shape := ⟨3, ![64, 512, 1]⟩
abbrev S64x512x2048 : Shape := ⟨3, ![64, 512, 2048]⟩
abbrev S131072x512 : Shape := ⟨2, ![131072, 512]⟩
abbrev S1x2048x512 : Shape := ⟨3, ![1, 2048, 512]⟩
abbrev S64x2048x512 : Shape := ⟨3, ![64, 2048, 512]⟩
abbrev S131072x1024 : Shape := ⟨2, ![131072, 1024]⟩
abbrev S1024x512 : Shape := ⟨2, ![1024, 512]⟩
abbrev S131072x1 : Shape := ⟨2, ![131072, 1]⟩
abbrev S64x2048 : Shape := ⟨2, ![64, 2048]⟩
abbrev S512x64 : Shape := ⟨2, ![512, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S64x64, .f32⟩
  | 1 => ⟨S64x512, .f32⟩
  | 2 => ⟨S64x512, .f32⟩
  | 3 => ⟨S2048x512, .f32⟩
  | 4 => ⟨S1536x64, .f32⟩
  | 5 => ⟨S1536x512, .f32⟩
  | 6 => ⟨S1536, .f32⟩
  | 7 => ⟨S1536, .f32⟩
  | 8 => ⟨S1x512, .f32⟩
  | 9 => ⟨S1, .f32⟩
  | 10 => ⟨S512x1024, .f32⟩
  | 11 => ⟨S512, .f32⟩
  | 12 => ⟨S1x512, .f32⟩
  | 13 => ⟨S1, .f32⟩
  | 14 => ⟨S512x512, .f32⟩
  | 15 => ⟨S512, .f32⟩
  | 16 => ⟨S512x512, .f32⟩
  | 17 => ⟨S64x512, .f32⟩
  | 18 => ⟨S64, .f32⟩
  | 19 => ⟨S64x1536, .f32⟩
  | 20 => ⟨S64x1536, .f32⟩
  | 21 => ⟨S1x1536, .f32⟩
  | 22 => ⟨S64x1536, .f32⟩
  | 23 => ⟨S64x1536, .f32⟩
  | 24 => ⟨S512x1536, .f32⟩
  | 25 => ⟨S64x1536, .f32⟩
  | 26 => ⟨S1x1536, .f32⟩
  | 27 => ⟨S64x1536, .f32⟩
  | 28 => ⟨S64x1536, .f32⟩
  | 29 => ⟨S64x512, .f32⟩
  | 30 => ⟨S64x512, .f32⟩
  | 31 => ⟨S64x512, .f32⟩
  | 32 => ⟨S64x512, .f32⟩
  | 33 => ⟨S64x512, .f32⟩
  | 34 => ⟨S64x512, .f32⟩
  | 35 => ⟨S64x512, .f32⟩
  | 36 => ⟨S64x512, .f32⟩
  | 37 => ⟨S64x512, .f32⟩
  | 38 => ⟨S_, .f32⟩
  | 39 => ⟨S64x512, .f32⟩
  | 40 => ⟨S64x512, .f32⟩
  | 41 => ⟨S_, .f32⟩
  | 42 => ⟨S64x512, .f32⟩
  | 43 => ⟨S64x512, .f32⟩
  | 44 => ⟨S64x512, .f32⟩
  | 45 => ⟨S64x512, .f32⟩
  | 46 => ⟨S64x512, .f32⟩
  | 47 => ⟨S_, .f32⟩
  | 48 => ⟨S64x512, .f32⟩
  | 49 => ⟨S64x512, .f32⟩
  | 50 => ⟨S_, .f32⟩
  | 51 => ⟨S64x512, .f32⟩
  | 52 => ⟨S64x512, .f32⟩
  | 53 => ⟨S64x512, .f32⟩
  | 54 => ⟨S64x512, .f32⟩
  | 55 => ⟨S64x512, .f32⟩
  | 56 => ⟨S_, .f32⟩
  | 57 => ⟨S64x512, .f32⟩
  | 58 => ⟨S64x512, .f32⟩
  | 59 => ⟨S64x512, .f32⟩
  | 60 => ⟨S64x512, .f32⟩
  | 61 => ⟨S64x512, .f32⟩
  | 62 => ⟨S512x1, .f32⟩
  | 63 => ⟨S64x1, .f32⟩
  | 64 => ⟨S1x1, .f32⟩
  | 65 => ⟨S64x1, .f32⟩
  | 66 => ⟨S64x1, .f32⟩
  | 67 => ⟨S64x1, .f32⟩
  | 68 => ⟨S64x1, .f32⟩
  | 69 => ⟨S_, .f32⟩
  | 70 => ⟨S64x1, .f32⟩
  | 71 => ⟨S64x1, .f32⟩
  | 72 => ⟨S_, .f32⟩
  | 73 => ⟨S64x1, .f32⟩
  | 74 => ⟨S64x1, .f32⟩
  | 75 => ⟨S64x1, .f32⟩
  | 76 => ⟨S64x512x1, .f32⟩
  | 77 => ⟨S64x512x2048, .f32⟩
  | 78 => ⟨S131072x512, .f32⟩
  | 79 => ⟨S1x2048x512, .f32⟩
  | 80 => ⟨S64x2048x512, .f32⟩
  | 81 => ⟨S131072x512, .f32⟩
  | 82 => ⟨S131072x1024, .f32⟩
  | 83 => ⟨S1024x512, .f32⟩
  | 84 => ⟨S131072x512, .f32⟩
  | 85 => ⟨S1x512, .f32⟩
  | 86 => ⟨S131072x512, .f32⟩
  | 87 => ⟨S131072x512, .f32⟩
  | 88 => ⟨S_, .f32⟩
  | 89 => ⟨S_, .f32⟩
  | 90 => ⟨S131072x512, .f32⟩
  | 91 => ⟨S131072x512, .f32⟩
  | 92 => ⟨S512x1, .f32⟩
  | 93 => ⟨S131072x1, .f32⟩
  | 94 => ⟨S1x1, .f32⟩
  | 95 => ⟨S131072x1, .f32⟩
  | 96 => ⟨S131072x1, .f32⟩
  | 97 => ⟨S64x2048, .f32⟩
  | 98 => ⟨S_, .f32⟩
  | 99 => ⟨S64, .f32⟩
  | 100 => ⟨S_, .f32⟩
  | 101 => ⟨S64, .f32⟩
  | 102 => ⟨S64, .f32⟩
  | 103 => ⟨S64x1, .f32⟩
  | 104 => ⟨S64x2048, .f32⟩
  | 105 => ⟨S64x2048, .f32⟩
  | 106 => ⟨S64x2048, .f32⟩
  | 107 => ⟨S_, .f32⟩
  | 108 => ⟨S64, .f32⟩
  | 109 => ⟨S64x1, .f32⟩
  | 110 => ⟨S64x2048, .f32⟩
  | 111 => ⟨S64x2048, .f32⟩
  | 112 => ⟨S64x512, .f32⟩
  | 113 => ⟨S512x512, .f32⟩
  | 114 => ⟨S64x512, .f32⟩
  | 115 => ⟨S1x512, .f32⟩
  | 116 => ⟨S64x512, .f32⟩
  | 117 => ⟨S64x512, .f32⟩
  | 118 => ⟨S512x512, .f32⟩
  | 119 => ⟨S64x512, .f32⟩
  | 120 => ⟨S64x512, .f32⟩
  | 121 => ⟨S64x512, .f32⟩
  | 122 => ⟨S512x64, .f32⟩
  | 123 => ⟨S64x64, .f32⟩
  | 124 => ⟨S1x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S_, .f32⟩
  | 2 => ⟨S64x64, .f32⟩
  | 3 => ⟨S64x64, .f32⟩
  | 4 => ⟨S_, .f32⟩
  | 5 => ⟨S64x64, .f32⟩
  | 6 => ⟨S64x64, .f32⟩
  | 7 => ⟨S64x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_call1_v0 : Ref sig .tc := ⟨.hbm, 89, rfl⟩
abbrev main_call1_v1 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_7 : Ref sig .tc := ⟨.hbm, 98, rfl⟩
abbrev main_v69 : Ref sig .tc := ⟨.hbm, 99, rfl⟩
abbrev main_cst_8 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_9 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_10 : Ref sig .tc := ⟨.hbm, 129, rfl⟩
abbrev main_v97 : Ref sig .tc := ⟨.hbm, 130, rfl⟩
abbrev main_v98 : Ref sig .tc := ⟨.hbm, 131, rfl⟩
abbrev main_cst_11 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩

abbrev nD : Nat := 1
abbrev τ : Topo := Topo.v7x

variable {F : FTy → Type} [FloatOps F]

class Facts₀ : Prop where
  transposes_S1536x64_S64x1536_1_0 : S1536x64.Transposes [1, 0] S64x1536
  bcast_S1536_S1x1536_1 : S1536.BroadcastsInDim S1x1536 (![1] : Fin 1 → Fin S1x1536.rank)
  bcast_S1x1536_S64x1536_0_1 : S1x1536.BroadcastsInDim S64x1536 (![0, 1] : Fin 2 → Fin S64x1536.rank)
  transposes_S1536x512_S512x1536_1_0 : S1536x512.Transposes [1, 0] S512x1536
  slices_S64x1536_S64x512_0_0 : S64x1536.Slices ![0, 0] S64x512
  slices_S64x1536_S64x512_0_512 : S64x1536.Slices ![0, 512] S64x512
  slices_S64x1536_S64x512_0_1024 : S64x1536.Slices ![0, 1024] S64x512
  bcast_S_S64x512 : S_.BroadcastsInDim S64x512 (![] : Fin 0 → Fin S64x512.rank)
  transposes_S1x512_S512x1_1_0 : S1x512.Transposes [1, 0] S512x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  bcast_S64x512_S64x512x1_0_1 : S64x512.BroadcastsInDim S64x512x1 (![0, 1] : Fin 2 → Fin S64x512x1.rank)
  bcast_S64x512x1_S64x512x2048_0_1_2 : S64x512x1.BroadcastsInDim S64x512x2048 (![0, 1, 2] : Fin 3 → Fin S64x512x2048.rank)
  shapeCasts_S64x512x2048_S131072x512 : S64x512x2048.ShapeCasts S131072x512
  bcast_S2048x512_S1x2048x512_1_2 : S2048x512.BroadcastsInDim S1x2048x512 (![1, 2] : Fin 2 → Fin S1x2048x512.rank)
  bcast_S1x2048x512_S64x2048x512_0_1_2 : S1x2048x512.BroadcastsInDim S64x2048x512 (![0, 1, 2] : Fin 3 → Fin S64x2048x512.rank)
  shapeCasts_S64x2048x512_S131072x512 : S64x2048x512.ShapeCasts S131072x512
  concatenates_S131072x512_S131072x512_S131072x1024_d1 : Shape.Concatenates [S131072x512, S131072x512] S131072x1024 1
  transposes_S512x1024_S1024x512_1_0 : S512x1024.Transposes [1, 0] S1024x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S1x1_S131072x1_0_1 : S1x1.BroadcastsInDim S131072x1 (![0, 1] : Fin 2 → Fin S131072x1.rank)
  shapeCasts_S131072x1_S64x2048 : S131072x1.ShapeCasts S64x2048
  reducesTo_S64x2048_S64_d1 : S64x2048.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  transposes_S512x512_S512x512_1_0 : S512x512.Transposes [1, 0] S512x512
  bcast_S1x512_S64x512_0_1 : S1x512.BroadcastsInDim S64x512 (![0, 1] : Fin 2 → Fin S64x512.rank)
  transposes_S64x512_S512x64_1_0 : S64x512.Transposes [1, 0] S512x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  dot_S64x64_S64x1536_S64x1536_1_0_0_1_n_n_wf : DotDims.WF S64x64 S64x1536 S64x1536 [1] [0] [0] [1] [] []
  dot_S64x512_S512x1536_S64x1536_1_0_0_1_n_n_wf : DotDims.WF S64x512 S512x1536 S64x1536 [1] [0] [0] [1] [] []
  dot_S64x512_S512x1_S64x1_1_0_0_1_n_n_wf : DotDims.WF S64x512 S512x1 S64x1 [1] [0] [0] [1] [] []
  dot_S131072x1024_S1024x512_S131072x512_1_0_0_1_n_n_wf : DotDims.WF S131072x1024 S1024x512 S131072x512 [1] [0] [0] [1] [] []
  dot_S131072x512_S512x1_S131072x1_1_0_0_1_n_n_wf : DotDims.WF S131072x512 S512x1 S131072x1 [1] [0] [0] [1] [] []
  dot_S64x2048_S2048x512_S64x512_1_0_0_1_n_n_wf : DotDims.WF S64x2048 S2048x512 S64x512 [1] [0] [0] [1] [] []
  dot_S64x512_S512x512_S64x512_1_0_0_1_n_n_wf : DotDims.WF S64x512 S512x512 S64x512 [1] [0] [0] [1] [] []
  dot_S64x512_S512x64_S64x64_1_0_0_1_n_n_wf : DotDims.WF S64x512 S512x64 S64x64 [1] [0] [0] [1] [] []

variable [Facts₀]

def dot_S64x64_S64x1536_S64x1536_1_0_0_1_n_n : DotDims S64x64 S64x1536 S64x1536 where
  lhsContracting := [1]
  rhsContracting := [0]
  lhsNonContracting := [0]
  rhsNonContracting := [1]
  lhsBatch := []
  rhsBatch := []
  wf := dot_S64x64_S64x1536_S64x1536_1_0_0_1_n_n_wf
def dot_S64x512_S512x1536_S64x1536_1_0_0_1_n_n : DotDims S64x512 S512x1536 S64x1536 where
  lhsContracting := [1]
  rhsContracting := [0]
  lhsNonContracting := [0]
  rhsNonContracting := [1]
  lhsBatch := []
  rhsBatch := []
  wf := dot_S64x512_S512x1536_S64x1536_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S131072x512_S512x1_S131072x1_1_0_0_1_n_n : DotDims S131072x512 S512x1 S131072x1 where
  lhsContracting := [1]
  rhsContracting := [0]
  lhsNonContracting := [0]
  rhsNonContracting := [1]
  lhsBatch := []
  rhsBatch := []
  wf := dot_S131072x512_S512x1_S131072x1_1_0_0_1_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf

class Facts : Prop extends Facts₀ where

variable [Facts]
-- ==== Proof.Spec.lean ====
/-
  The score array, stated once, index by index, over the arrays both programs are given.

  For a batch row b and a class k the score is
      y[b,k] = Σ_h max( s[b,k] · L[h] + ( Σ_d c[k,d] · T[d,h] + β[h] ), 0 ) · u[h]
  where s is the new state with every entry repeated four times along its row, c the class descriptors, T the
  descriptor half of the first layer's weights (transposed), L the row sums of the other half, β the first
  layer's bias and u the second layer's weights.  The kernel computes exactly this, one tile of 256 classes
  per grid point and eight batch rows per loop trip; the reference computes the same number from a
  1024-wide pair row, and the two agree by the law of Proof/Algebra.lean.
-/
import Idealize.ShloMosaic.PureOps.Ideal
import Idealize.ShloMosaic.Lib.ValueIdx

noncomputable section

namespace Cert.PairScore

open Idealize.ShloMosaic Idealize.ShloMosaic.ValueIdx
open scoped BigOperators

/-- A matrix of extended reals of literal extents. -/
abbrev Mat (a b : Nat) : Type := (⟨2, ![a, b]⟩ : Shape).Idx → EReal

/-- One hidden unit's contribution to a score: the rectified pre-activation times the output weight. -/
def unit (s l t β u : EReal) : EReal := max (s * l + (t + β)) 0 * u

/-- The score at a batch row and a class, from the repeated state s, the descriptors c, the transposed
    descriptor weights T, the row sums L, the bias β and the output weights u. -/
def rawScore (s : Mat 64 2048) (c : Mat 2048 512) (T : Mat 512 512) (L β u : Mat 1 512) : Mat 64 2048 :=
  fun i => ∑ h : Fin 512,
    unit (s i) (L (ix2 0 h)) (∑ d : Fin 512, c (ix2 (n0 := 2048) (i 1) d) * T (ix2 d h)) (β (ix2 0 h)) (u (ix2 0 h))

/-- The same tile by tile: the block of 256 classes the kernel's body computes from its six loaded blocks
    (eight rows of the state tile per trip; the row offset does not enter the arithmetic). -/
def tileScore (s : Mat 64 256) (c : Mat 256 512) (T : Mat 512 512) (L β u : Mat 1 512) : Mat 64 256 :=
  fun i => ∑ h : Fin 512,
    unit (s i) (L (ix2 0 h)) (∑ d : Fin 512, c (ix2 (n0 := 256) (i 1) d) * T (ix2 d h)) (β (ix2 0 h)) (u (ix2 0 h))

/-- A vector of 512 extended reals, and of one. -/
abbrev Vec1 (n : Nat) : Type := (⟨1, ![n]⟩ : Shape).Idx → EReal

/-- The new state with each entry repeated four times along its row: column k reads column k / 4. -/
def rep4 (ns : Mat 64 512) : Mat 64 2048 :=
  fun i => ns (ix2 (n0 := 64) (i 0) ⟨(i 1).val / 4, by have h : (i 1).val < 2048 := (i 1).isLt; omega⟩)

/-- The descriptor half of the first layer's weights, transposed: entry (d, h) is w[h, 512 + d]. -/
def descT (w : Mat 512 1024) : Mat 512 512 :=
  fun p => w (ix2 (n0 := 512) (p 1) ⟨512 + (p 0).val, by have h : (p 0).val < 512 := (p 0).isLt; omega⟩)

/-- The row sums of the state half of the first layer's weights: entry h is Σ_{j<512} w[h, j]. -/
def leftSum (w : Mat 512 1024) : Mat 1 512 :=
  fun p => ∑ j : Fin 512, w (ix2 (n0 := 512) (p 1) ⟨j.val, by have := j.isLt; omega⟩)

/-- A vector as a one-row matrix. -/
def rowOf (b : Vec1 512) : Mat 1 512 := fun p => b (ix1 (n := 512) (p 1))

/-- THE SCORE both programs return: the raw score of the derived arrays plus the output bias. -/
def score (ns : Mat 64 512) (c : Mat 2048 512) (w : Mat 512 1024) (b1 : Vec1 512) (u : Mat 1 512) (b2 : Vec1 1) :
    Mat 64 2048 :=
  fun i => rawScore (rep4 ns) c (descT w) (leftSum w) (rowOf b1) u i + b2 (ix1 0)

end Cert.PairScore

end
-- ==== Proof.Pieces.lean ====
/-
  What one grid point leaves in the output tile.

  The body runs eight trips; trip k loads rows 8k … 8k+7 of the state tile, computes the eight rows of scores
  from them and the (trip-independent) descriptor tile and weights, and stores them at rows 8k … 8k+7 of the
  output tile.  Every stored piece is therefore the restriction of ONE function of the tile index — the tile
  score of Proof/Spec.lean — and the eight pieces tile the 64 rows, so the tile read back after the body is
  that function.
-/
import proofs.«107233_j46076409152346_2_alg».proof.Proof.Gen.KernelIdeal.Frame
import proofs.«107233_j46076409152346_2_alg».proof.Proof.Spec
import Idealize.ShloMosaic.Lib.WholeRead
import Idealize.ShloMosaic.Lib.Pipeline.Value

set_option maxRecDepth 16384

noncomputable section

namespace Cert.PairScore

open Idealize.ShloMosaic Idealize.ShloMosaic.TcCoe Idealize.ShloMosaic.ValueIdx
open Idealize.SL Idealize.SL.Sem
open Cert.KernelIdeal Cert.KernelIdeal.Gen

variable {F : FTy → Type} [FloatOps F]

/-- Every piece the first n trips store is some trip's: rows 8k … 8k+7, holding the payload of the state rows
    loaded there. -/
theorem mem_trips (𝒱 : Variants) (bd : Option 𝒱.V) (c : Dev nD) (i : grid0.Coords) (arg1 : Memref sig .tc .vmem S64x256 .f32) (harg1 : arg1.IsWhole) (arg2 : Memref sig .tc .vmem S256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S64x256 .f32) (harg7 : arg7.IsWhole)
    (v0 : Vec F S256x512 .f32) (v2 : Vec F S512x512 .f32) (v6 v11 v15 : Vec F S1x512 .f32) (X : BufTy.Contents (Elt F) arg1.view.ty) :
    ∀ (n : ℕ), n ≤ k0_t1_loop.trips → ∀ (p : View.Piece (Elt F) S64x256 .f32),
      p ∈ pb_k0_t1 (F := F) 𝒱 c bd i arg1 harg1 arg2 harg2 arg3 harg3 arg4 harg4 arg5 harg5 arg6 harg6 arg7 harg7 v0 v2 v6 v11 v15 X n →
      ∃ k : Fin k0_t1_loop.trips, p = ⟨Rect.unit (s := S64x256) (k0_off1 k) S8x256.size (k0_off1_inb k),
        k0_pay1 v0 v2 v6 v11 v15 (View.readAt (Elt F) arg1.view (Rect.unit (s := S64x256) (k0_off1 k) S8x256.size (k0_off1_inb k)).toLoadRect X : Vec F S8x256 .f32)⟩ := by
  intro n
  induction n with
  | zero => intro _ p hp; exact absurd hp List.not_mem_nil
  | succ n ih =>
    intro hn p hp
    have h : n < k0_t1_loop.trips := hn
    have e := pb_k0_t1_succ (F := F) 𝒱 c bd i arg1 harg1 arg2 harg2 arg3 harg3 arg4 harg4 arg5 harg5 arg6 harg6 arg7 harg7 v0 v2 v6 v11 v15 X ⟨n, h⟩
    rw [show (⟨n, h⟩ : Fin k0_t1_loop.trips).val = n from rfl] at e
    rw [e, List.mem_append] at hp
    rcases hp with hp | hp
    · refine ⟨⟨n, h⟩, ?_⟩
      unfold tripL_k0_t1 trip_k0_t1 at hp
      exact List.mem_singleton.mp hp
    · exact ih (Nat.le_of_lt h) p hp

/-- The all-zero offset, as a function. -/
theorem off_zero : (![0, 0] : Fin 2 → Nat) = fun _ => 0 := funext fun a => by fin_cases a <;> rfl

/-- A whole load of a whole buffer held at contents that read X reads X. -/
theorem readAt_whole_unread {S : Shape} (m : Memref sig .tc .vmem S .f32) (h : m.IsWhole) (X : Vec Ideal S .f32)
    (off : Fin S.rank → Nat) (hz : off = fun _ => 0) (inb : ∀ a, off a + S.size a ≤ S.size a) :
    View.readAt (Elt Ideal) m.view (Rect.unit (s := S) off S.size inb).toLoadRect (h.unread X) = X := by
  rw [View.readAt_eq_ld, h.read_unread, View.ld_unit_zero (S := S) hz]

/-- THE TILE one grid point leaves: the tile score of its six loaded blocks, given that the body's payload is
    the tile score row by row (Proof/Payload.lean proves that hypothesis). -/
theorem out_tile (c : Dev nD) (i : grid0.Coords) (arg1 : Memref sig .tc .vmem S64x256 .f32) (harg1 : arg1.IsWhole) (arg2 : Memref sig .tc .vmem S256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S64x256 .f32) (harg7 : arg7.IsWhole) (x0 : Vec Ideal S64x256 .f32) (x1 : Vec Ideal S256x512 .f32) (x2 : Vec Ideal S512x512 .f32) (x3 x4 x5 : Vec Ideal S1x512 .f32)
    (hpay : ∀ (v30 : Vec Ideal S8x256 .f32) (r : Fin 64) (b : Fin 8) (j : Fin 256), v30 (ix2 b j) = x0 (ix2 r j) →
      k0_pay1 (F := Ideal) x1 x2 x4 x3 x5 v30 (ix2 b j) = tileScore x0 x1 x2 x3 x4 x5 (ix2 r j)) :
    out0_A_6 (F := Ideal) c i arg1 harg1 arg2 harg2 arg3 harg3 arg4 harg4 arg5 harg5 arg6 harg6 arg7 harg7 x0 x1 x2 x3 x4 x5 = tileScore x0 x1 x2 x3 x4 x5 := by
  funext y
  unfold out0_A_6
  refine View.read_writes_apply_of_pieces _ _ (tileScore x0 x1 x2 x3 x4 x5) _ ?_ y
    (cover0_A_6 c i arg1 harg1 arg2 harg2 arg3 harg3 arg4 harg4 arg5 harg5 arg6 harg6 arg7 harg7 x0 x1 x2 x3 x4 x5 y)
  intro p hp
  unfold kernelRun0_A at hp
  dsimp only at hp
  rw [readAt_whole_unread arg2 harg2 x1 _ off_zero, readAt_whole_unread arg3 harg3 x2 _ off_zero,
    readAt_whole_unread arg5 harg5 x4 _ off_zero, readAt_whole_unread arg4 harg4 x3 _ off_zero,
    readAt_whole_unread arg6 harg6 x5 _ off_zero] at hp
  obtain ⟨k, rfl⟩ := mem_trips _ _ _ _ _ _ _ _ _ _ _ _ _ _ _ _ _ _ _ _ _ _ _ _ _ le_rfl p hp
  intro (x : S8x256.Idx)
  show k0_pay1 x1 x2 x4 x3 x5 _ x
    = tileScore x0 x1 x2 x3 x4 x5 ((Rect.unit (s := S64x256) (k0_off1 k) S8x256.size (k0_off1_inb k)).emb x)
  have hk : k.val < 8 := Nat.lt_of_lt_of_le k.isLt k0_t1_abs.2.1
  have hb : (x 0).val < 8 := (x 0).isLt
  have hr : 8 * k.val + (x 0).val < 64 := by omega
  have hemb : (Rect.unit (s := S64x256) (k0_off1 k) S8x256.size (k0_off1_inb k)).emb x
      = (ix2 ⟨8 * k.val + (x 0).val, hr⟩ (x 1) : S64x256.Idx) := by
    funext a; apply Fin.ext
    match a with
    | ⟨0, _⟩ => show k0_off1 k 0 + 1 * (x 0).val = 8 * k.val + (x 0).val; rw [k0_off1_eq]; simp
    | ⟨1, _⟩ => show k0_off1 k 1 + 1 * (x 1).val = (x 1).val; rw [k0_off1_eq]; simp
  rw [hemb]
  refine (congrArg _ (eq_ix2 x)).trans ?_
  refine hpay _ ⟨8 * k.val + (x 0).val, hr⟩ (x 0) (x 1) ?_
  refine (harg1.readAt_unread x0 _ _).trans ?_
  refine congrArg x0 ?_
  exact (congrArg (Rect.unit (s := S64x256) (k0_off1 k) S8x256.size (k0_off1_inb k)).emb (eq_ix2 x).symm).trans hemb

end Cert.PairScore

end
-- ==== Proof.Payload.lean ====
/-
  The arithmetic of one loop trip, read at an index.

  One trip of the kernel's loop takes a block s of eight rows of the state tile (8 × 256), the tile c of 256
  class descriptors (256 × 512), the transposed descriptor weights T (512 × 512) and the three rows L, β, u
  (1 × 512 each), and returns the 8 × 256 block whose entry at (b, j) is
      Σ_h max( s[b,j] · L[h] + ( Σ_d c[j,d] · T[d,h] + β[h] ), 0 ) · u[h].
  The generated term builds it from whole-array operations: a matrix product into a zero accumulator, format
  changes (the identity on the extended reals), reshapes and broadcasts that only move entries, pointwise
  products, sums and a maximum against the constant 0, and a sum over the last axis of an 8 × 256 × 512 array.
  Each moving operation reads one entry of its operand at an index we name by its coordinates; the matrix
  product at (j, h) is the sum over the one contracted coordinate d; the sum over the last axis at (b, j) is the
  sum over h of the entry at (b, j, h).  Putting the readings together gives the displayed formula, which is
  the tile score of Proof/Spec.lean wherever the block s agrees with the state tile.
-/
import proofs.«107233_j46076409152346_2_alg».proof.Proof.Gen.KernelIdeal.Skeleton
import proofs.«107233_j46076409152346_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.PairScore

open Idealize.ShloMosaic Idealize.ShloMosaic.ValueIdx Cert.KernelIdeal Cert.KernelIdeal.Gen
open scoped BigOperators

/-! ## The moving operations, each read at an index given by coordinates -/

section Moves
variable {α : Type}

/-- A one-row matrix reshaped to a vector reads, at h, the row's entry (0, h). -/
theorem row_to_vec_apply (x : S1x512.Idx → α) (h1 : S1x512.ShapeCasts S512) (h : Fin 512) :
    shapeCast S512 x h1 (ix1 h) = x (ix2 0 h) := by
  refine shapeCast_apply x h1 (ix1 h) (ix2 0 h) ?_
  rw [Shape.rowMajor_val_two, Shape.rowMajor_val_one]
  show 0 * 512 + h.val = h.val
  omega

/-- A vector of 512 reshaped to 1 × 1 × 512 (twice) and repeated over 8 × 256 × 512 reads, at (b, j, h), its
    entry h. -/
theorem vec_to_cube_apply (y : S512.Idx → α) (h2 : S512.ShapeCasts S1x1x512) (h3 : S1x1x512.ShapeCasts S1x1x512)
    (hb : S1x1x512.Broadcasts S8x256x512) (b : Fin 8) (j : Fin 256) (h : Fin 512) :
    broadcastTo S8x256x512 (shapeCast S1x1x512 (shapeCast S1x1x512 y h2) h3) hb (ix3 b j h) = y (ix1 h) := by
  refine (broadcastTo_apply _ hb (ix3 b j h) (ix3 0 0 h) (fun a => match a with
    | ⟨0, _⟩ => rfl
    | ⟨1, _⟩ => rfl
    | ⟨2, _⟩ => rfl)).trans ?_
  refine (congrFun (shapeCast_self _ h3) _).trans ?_
  refine shapeCast_apply y h2 (ix3 0 0 h) (ix1 h) ?_
  rw [Shape.rowMajor_val_three, Shape.rowMajor_val_one]
  show h.val = (0 * 1 + 0) * 512 + h.val
  omega

/-- An 8 × 256 block given a trailing axis of extent one and repeated along it 512 times reads, at (b, j, h),
    its entry (b, j). -/
theorem block_to_cube_apply (z : S8x256.Idx → α) (h4 : S8x256.ShapeCasts S8x256x1)
    (hb : S8x256x1.Broadcasts S8x256x512) (b : Fin 8) (j : Fin 256) (h : Fin 512) :
    broadcastTo S8x256x512 (shapeCast S8x256x1 z h4) hb (ix3 b j h) = z (ix2 b j) := by
  refine (broadcastTo_apply _ hb (ix3 b j h) (ix3 b j 0) (fun a => match a with
    | ⟨0, _⟩ => rfl
    | ⟨1, _⟩ => rfl
    | ⟨2, _⟩ => rfl)).trans ?_
  refine shapeCast_apply z h4 (ix3 b j 0) (ix2 b j) ?_
  rw [Shape.rowMajor_val_three, Shape.rowMajor_val_two]
  show b.val * 256 + j.val = (b.val * 256 + j.val) * 1 + 0
  omega

/-- A 256 × 512 tile given a leading axis of extent one and repeated along it eight times reads, at
    (b, j, h), its entry (j, h). -/
theorem tile_to_cube_apply (w : S256x512.Idx → α) (h5 : S256x512.ShapeCasts S1x256x512)
    (hb : S1x256x512.Broadcasts S8x256x512) (b : Fin 8) (j : Fin 256) (h : Fin 512) :
    broadcastTo S8x256x512 (shapeCast S1x256x512 w h5) hb (ix3 b j h) = w (ix2 j h) := by
  refine (broadcastTo_apply _ hb (ix3 b j h) (ix3 0 j h) (fun a => match a with
    | ⟨0, _⟩ => rfl
    | ⟨1, _⟩ => rfl
    | ⟨2, _⟩ => rfl)).trans ?_
  refine shapeCast_apply w h5 (ix3 0 j h) (ix2 j h) ?_
  rw [Shape.rowMajor_val_three, Shape.rowMajor_val_two]
  show j.val * 512 + h.val = (0 * 256 + j.val) * 512 + h.val
  omega

/-- A one-row matrix reshaped to itself and repeated down 256 rows reads, at (j, h), the row's entry (0, h). -/
theorem row_to_tile_apply (x : S1x512.Idx → α) (h0 : S1x512.ShapeCasts S1x512) (hb : S1x512.Broadcasts S256x512)
    (j : Fin 256) (h : Fin 512) :
    broadcastTo S256x512 (shapeCast S1x512 x h0) hb (ix2 j h) = x (ix2 0 h) := by
  refine (broadcastTo_apply _ hb (ix2 j h) (ix2 0 h) (fun a => match a with
    | ⟨0, _⟩ => rfl
    | ⟨1, _⟩ => rfl)).trans ?_
  exact congrFun (shapeCast_self x h0) _

end Moves

/-! ## The matrix product, the constant and the sum over the last axis -/

/-- The product's left index at output index i and contraction index q keeps i's row … -/
theorem product_lhs_row (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide),
    dif_pos (show (0 : Fin S256x512.rank) ∈ dot_S256x512_S512x512_S256x512_1_0_0_1_n_n.lhsNonContracting by decide)]
  rfl
/-- … and has the contracted coordinate as its column; -/
theorem product_lhs_col (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
/-- the right index has the contracted coordinate as its row … -/
theorem product_rhs_row (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
/-- … and keeps i's column. -/
theorem product_rhs_col (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide),
    dif_pos (show (1 : Fin S512x512.rank) ∈ dot_S256x512_S512x512_S256x512_1_0_0_1_n_n.rhsNonContracting by decide)]
  rfl

/-- The matrix product of a 256 × 512 and a 512 × 512 matrix into the zero matrix, at (j, h): the sum over the
    one contracted coordinate d of the products of the entries (j, d) and (d, h). -/
theorem product_apply {φ₁ φ₂ : FTy} (lhs : FVec Ideal S256x512 φ₁) (rhs : FVec Ideal S512x512 φ₂) (j : Fin 256) (h : Fin 512) :
    matmul (F := Ideal) dot_S256x512_S512x512_S256x512_1_0_0_1_n_n none lhs rhs (constant S256x512 .f32 0x00000000#32) (ix2 j h)
      = ∑ d : Fin 512, lhs (ix2 j d) * rhs (ix2 d h) := by
  simp only [matmul]
  rw [Ideal.matmul_constant_zero_apply,
    ← Equiv.sum_comp (contrEquiv1 dot_S256x512_S512x512_S256x512_1_0_0_1_n_n 512 rfl rfl).symm]
  refine Finset.sum_congr rfl fun d _ => ?_
  have hd := contrEquiv1_symm_val dot_S256x512_S512x512_S256x512_1_0_0_1_n_n 512 rfl rfl d
  have el : dot_S256x512_S512x512_S256x512_1_0_0_1_n_n.lhsIdx (ix2 j h)
      ((contrEquiv1 dot_S256x512_S512x512_S256x512_1_0_0_1_n_n 512 rfl rfl).symm d) = ix2 j d :=
    funext fun a => Fin.ext (by
      match a with
      | ⟨0, _⟩ => exact product_lhs_row _ _
      | ⟨1, _⟩ => exact (product_lhs_col _ _).trans hd)
  have er : dot_S256x512_S512x512_S256x512_1_0_0_1_n_n.rhsIdx (ix2 j h)
      ((contrEquiv1 dot_S256x512_S512x512_S256x512_1_0_0_1_n_n 512 rfl rfl).symm d) = ix2 d h :=
    funext fun a => Fin.ext (by
      match a with
      | ⟨0, _⟩ => exact (product_rhs_row _ _).trans hd
      | ⟨1, _⟩ => exact product_rhs_col _ _)
  rw [el, er]

/-- The sixteen-bit pattern of all zeros denotes the number 0. -/
theorem zero_pattern : (Scalar.ofBits (F := Ideal) .bf16 0x0000#16 : EReal) = 0 :=
  IdealRules.sign_bit.ideal_zero .bf16

/-- The index of the 8 × 256 × 512 array over the entry (b, j) of its sum along the last axis, at coordinate h
    of that axis, is (b, j, h). -/
theorem lift_eq (hr : S8x256x512.Reduces [2] S8x256) (b : Fin 8) (j : Fin 256) (h : Fin 512) :
    hr.lift (ix2 b j) h = ix3 b j h :=
  funext fun a => Fin.ext (by
    match a with
    | ⟨0, _⟩ => rfl
    | ⟨1, _⟩ => rfl
    | ⟨2, _⟩ => rfl)

/-! ## The trip's arithmetic at an index -/

/-- The pointwise part of the generated term at an index: the format change is the identity, the products, the
    sum and the maximum are the extended reals', and the repeated constant reads the constant. -/
theorem pointwise_apply (A B C E : FVec Ideal S8x256x512 .bf16) (z : Ideal .bf16) (i : S8x256x512.Idx) :
    (extf (F := Ideal) .f32 (mulf (maximumf (addf (mulf A B) C) (broadcast S8x256x512 z)) E) bitsLt_bf16_f32) i
      = max (A i * B i + C i) z * E i := rfl

/-- THE TRIP'S VALUE at (b, j): the sum over the 512 hidden units h of the rectified pre-activation
    s[b,j] · L[h] + (Σ_d c[j,d] · T[d,h] + β[h]) times the output weight u[h]. -/
theorem payload_at (v0 : Vec Ideal S256x512 .f32) (v2 : Vec Ideal S512x512 .f32) (v6 v11 v15 : Vec Ideal S1x512 .f32)
    (v30 : Vec Ideal S8x256 .f32) (b : Fin 8) (j : Fin 256) :
    k0_pay1 (F := Ideal) v0 v2 v6 v11 v15 v30 (ix2 b j)
      = ∑ h : Fin 512, unit (v30 (ix2 b j)) (v11 (ix2 0 h)) (∑ d : Fin 512, v0 (ix2 j d) * v2 (ix2 d h)) (v6 (ix2 0 h))
          (v15 (ix2 0 h)) := by
  unfold k0_pay1
  refine (Ideal.multiReduction_add_single _ _ reduces_S8x256x512_S8x256 (.inl rfl) rfl (ix2 b j)).trans ?_
  refine Finset.sum_congr rfl fun (h : Fin 512) _ => ?_
  rw [lift_eq reduces_S8x256x512_S8x256 b j h]
  refine (pointwise_apply _ _ _ _ _ _).trans ?_
  unfold unit
  refine congrArg₂ (· * ·) (congrArg₂ max (congrArg₂ (· + ·) (congrArg₂ (· * ·) ?_ ?_) ?_) zero_pattern) ?_
  · -- the state entry s[b,j]
    exact (block_to_cube_apply _ _ _ b j h).trans (congrFun (shapeCast_self v30 _) _)
  · -- the row sum L[h]
    exact (vec_to_cube_apply _ _ _ _ b j h).trans
      ((row_to_vec_apply _ _ h).trans (congrFun (shapeCast_self v11 _) _))
  · -- the descriptor product plus the bias, Σ_d c[j,d] · T[d,h] + β[h]
    refine (tile_to_cube_apply _ _ _ b j h).trans ?_
    refine congrArg₂ (· + ·) ((product_apply _ _ j h).trans ?_) (row_to_tile_apply v6 _ _ j h)
    exact Finset.sum_congr rfl fun d _ => congrArg (v0 (ix2 j d) * ·) (congrFun (shapeCast_self v2 _) _)
  · -- the output weight u[h]
    exact (vec_to_cube_apply _ _ _ _ b j h).trans (row_to_vec_apply v15 _ h)

/-- Where the block of eight state rows agrees with the state tile at row r, the trip's value at (b, j) is the
    tile score at (r, j). -/
theorem payload_eq_tile (v0 : Vec Ideal S256x512 .f32) (v2 : Vec Ideal S512x512 .f32) (v6 v11 v15 : Vec Ideal S1x512 .f32)
    (x0 : Vec Ideal S64x256 .f32) (v30 : Vec Ideal S8x256 .f32) (r : Fin 64) (b : Fin 8) (j : Fin 256)
    (hv : v30 (ix2 b j) = x0 (ix2 r j)) :
    k0_pay1 (F := Ideal) v0 v2 v6 v11 v15 v30 (ix2 b j) = tileScore x0 v0 v2 v11 v6 v15 (ix2 r j) := by
  rw [payload_at, hv]
  rfl

end Cert.PairScore

end
-- ==== Proof.Tiles.lean ====
/-
  From tiles to the score array.

  Grid point t stages columns 256t … 256t+255 of the repeated state and rows 256t … 256t+255 of the class
  descriptors, the weight arrays whole, and writes back columns 256t … 256t+255 of the output.  The tile it
  leaves (Proof/Pieces.lean, Proof/Payload.lean) is the tile score of those blocks, which is the restriction of
  the raw score of the whole arrays to those columns; the eight column blocks cover the [64, 2048] array, so
  after the region the array is the raw score.
-/
import proofs.«107233_j46076409152346_2_alg».proof.Proof.Gen.KernelIdeal.Frame
import proofs.«107233_j46076409152346_2_alg».proof.Proof.Pieces
import proofs.«107233_j46076409152346_2_alg».proof.Proof.Payload
import Idealize.ShloMosaic.Lib.Pipeline.Value

set_option maxRecDepth 16384

noncomputable section

namespace Cert.PairScore

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The raw score of the arrays as the region finds them. -/
abbrev regionScore (c : Dev nD) : S64x2048.Idx → EReal :=
  rawScore (V m c main_v51) (V m c main_arg3) (V m c main_v56) (V m c main_v55) (V m c main_v57) (V m c main_arg12)

/-- The printed index maps over the grid: the state and the output move along columns with the point, the
    descriptors along rows, the weights stay. -/
theorem block_indices : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

set_option maxHeartbeats 1000000 in
/-- What point t writes back is block t of the raw score. -/
theorem flushed_score (c : Dev nD) (t : Fin cfg0.N) :
    (dats m 0 c).flushed 6 t = ((cfg0.win 6).blk t).view.read (Elt Ideal) (regionScore m c) := by
  show (cfg0.win 6).cut (grid0.coords t) ((dats m 0 c).after 6 t) = _
  rw [after0_6]
  unfold outsAt0
  rw [out_tile c _ _ _ _ _ _ _ _ _ _ _ _ _ _ _ _ _ _ _ _ _ (fun v30 r b j hv => payload_eq_tile _ _ _ _ _ _ v30 r b j hv)]
  obtain ⟨a0, a1, b0, b1, c0, c1, d0, d1, e0, e1, f0, f1, g0, g1⟩ := block_indices t
  refine funext fun (j : S64x256.Idx) => ?_
  have hj0 : (j 0).val < 64 := (j 0).isLt
  have hj1 : (j 1).val < 256 := (j 1).isLt
  have ht : t.val < 8 := t.isLt
  have hcol : 256 * t.val + (j 1).val < 2048 := by omega
  -- the output block's index in the array
  have h6 : ((cfg0.win 6).blk t).view.emb j = (ix2 (j 0) ⟨256 * t.val + (j 1).val, hcol⟩ : S64x2048.Idx) := by
    funext a; apply Fin.ext
    match a with
    | ⟨0, _⟩ => show win0_6.index t (0 : Fin 2) * 64 + 1 * (j 0).val = (j 0).val; omega
    | ⟨1, _⟩ => show win0_6.index t (1 : Fin 2) * 256 + 1 * (j 1).val = 256 * t.val + (j 1).val; omega
  have h0 : ((cfg0.win 0).blk t).view.emb j = (ix2 (j 0) ⟨256 * t.val + (j 1).val, hcol⟩ : S64x2048.Idx) := by
    funext a; apply Fin.ext
    match a with
    | ⟨0, _⟩ => show win0_0.index t (0 : Fin 2) * 64 + 1 * (j 0).val = (j 0).val; omega
    | ⟨1, _⟩ => show win0_0.index t (1 : Fin 2) * 256 + 1 * (j 1).val = 256 * t.val + (j 1).val; omega
  have h1 : ∀ d : Fin 512, ((cfg0.win 1).blk t).view.emb (ix2 (n0 := 256) (j 1) d : S256x512.Idx)
      = (ix2 (n0 := 2048) ⟨256 * t.val + (j 1).val, hcol⟩ d : S2048x512.Idx) := fun d => by
    funext a; apply Fin.ext
    match a with
    | ⟨0, _⟩ => show win0_1.index t (0 : Fin 2) * 256 + 1 * (j 1).val = 256 * t.val + (j 1).val; omega
    | ⟨1, _⟩ => show win0_1.index t (1 : Fin 2) * 512 + 1 * d.val = d.val; omega
  have h2 : ∀ (d h : Fin 512), ((cfg0.win 2).blk t).view.emb (ix2 d h : S512x512.Idx) = (ix2 d h : S512x512.Idx) := fun d h => by
    funext a; apply Fin.ext
    match a with
    | ⟨0, _⟩ => show win0_2.index t (0 : Fin 2) * 512 + 1 * d.val = d.val; omega
    | ⟨1, _⟩ => show win0_2.index t (1 : Fin 2) * 512 + 1 * h.val = h.val; omega
  have h3 : ∀ h : Fin 512, ((cfg0.win 3).blk t).view.emb (ix2 (0 : Fin 1) h : S1x512.Idx) = (ix2 (0 : Fin 1) h : S1x512.Idx) := fun h => by
    funext a; apply Fin.ext
    match a with
    | ⟨0, _⟩ => show win0_3.index t (0 : Fin 2) * 1 + 1 * 0 = 0; omega
    | ⟨1, _⟩ => show win0_3.index t (1 : Fin 2) * 512 + 1 * h.val = h.val; omega
  have h4 : ∀ h : Fin 512, ((cfg0.win 4).blk t).view.emb (ix2 (0 : Fin 1) h : S1x512.Idx) = (ix2 (0 : Fin 1) h : S1x512.Idx) := fun h => by
    funext a; apply Fin.ext
    match a with
    | ⟨0, _⟩ => show win0_4.index t (0 : Fin 2) * 1 + 1 * 0 = 0; omega
    | ⟨1, _⟩ => show win0_4.index t (1 : Fin 2) * 512 + 1 * h.val = h.val; omega
  have h5 : ∀ h : Fin 512, ((cfg0.win 5).blk t).view.emb (ix2 (0 : Fin 1) h : S1x512.Idx) = (ix2 (0 : Fin 1) h : S1x512.Idx) := fun h => by
    funext a; apply Fin.ext
    match a with
    | ⟨0, _⟩ => show win0_5.index t (0 : Fin 2) * 1 + 1 * 0 = 0; omega
    | ⟨1, _⟩ => show win0_5.index t (1 : Fin 2) * 512 + 1 * h.val = h.val; omega
  have e0 : iblk m c 0 t j = (V m c main_v51 : S64x2048.Idx → EReal) (ix2 (j 0) ⟨256 * t.val + (j 1).val, hcol⟩) :=
    (show iblk m c 0 t j = (V m c main_v51 : S64x2048.Idx → EReal) (((cfg0.win 0).blk t).view.emb j) from rfl).trans (congrArg (V m c main_v51 : S64x2048.Idx → EReal) h0)
  have e1 : ∀ d : Fin 512, iblk m c 1 t (ix2 (n0 := 256) (j 1) d : S256x512.Idx)
      = (V m c main_arg3 : S2048x512.Idx → EReal) (ix2 (n0 := 2048) ⟨256 * t.val + (j 1).val, hcol⟩ d) := fun d =>
    (show iblk m c 1 t (ix2 (n0 := 256) (j 1) d : S256x512.Idx) = (V m c main_arg3 : S2048x512.Idx → EReal) (((cfg0.win 1).blk t).view.emb (ix2 (n0 := 256) (j 1) d : S256x512.Idx)) from rfl).trans (congrArg (V m c main_arg3 : S2048x512.Idx → EReal) (h1 d))
  have e2 : ∀ d h : Fin 512, iblk m c 2 t (ix2 d h : S512x512.Idx) = (V m c main_v56 : S512x512.Idx → EReal) (ix2 d h) := fun d h =>
    (show iblk m c 2 t (ix2 d h : S512x512.Idx) = (V m c main_v56 : S512x512.Idx → EReal) (((cfg0.win 2).blk t).view.emb (ix2 d h : S512x512.Idx)) from rfl).trans (congrArg (V m c main_v56 : S512x512.Idx → EReal) (h2 d h))
  have e3 : ∀ h : Fin 512, iblk m c 3 t (ix2 (0 : Fin 1) h : S1x512.Idx) = (V m c main_v55 : S1x512.Idx → EReal) (ix2 0 h) := fun h =>
    (show iblk m c 3 t (ix2 (0 : Fin 1) h : S1x512.Idx) = (V m c main_v55 : S1x512.Idx → EReal) (((cfg0.win 3).blk t).view.emb (ix2 (0 : Fin 1) h : S1x512.Idx)) from rfl).trans (congrArg (V m c main_v55 : S1x512.Idx → EReal) (h3 h))
  have e4 : ∀ h : Fin 512, iblk m c 4 t (ix2 (0 : Fin 1) h : S1x512.Idx) = (V m c main_v57 : S1x512.Idx → EReal) (ix2 0 h) := fun h =>
    (show iblk m c 4 t (ix2 (0 : Fin 1) h : S1x512.Idx) = (V m c main_v57 : S1x512.Idx → EReal) (((cfg0.win 4).blk t).view.emb (ix2 (0 : Fin 1) h : S1x512.Idx)) from rfl).trans (congrArg (V m c main_v57 : S1x512.Idx → EReal) (h4 h))
  have e5 : ∀ h : Fin 512, iblk m c 5 t (ix2 (0 : Fin 1) h : S1x512.Idx) = (V m c main_arg12 : S1x512.Idx → EReal) (ix2 0 h) := fun h =>
    (show iblk m c 5 t (ix2 (0 : Fin 1) h : S1x512.Idx) = (V m c main_arg12 : S1x512.Idx → EReal) (((cfg0.win 5).blk t).view.emb (ix2 (0 : Fin 1) h : S1x512.Idx)) from rfl).trans (congrArg (V m c main_arg12 : S1x512.Idx → EReal) (h5 h))
  show tileScore (iblk m c 0 t) (iblk m c 1 t) (iblk m c 2 t) (iblk m c 3 t) (iblk m c 4 t) (iblk m c 5 t) j
    = regionScore m c (((cfg0.win 6).blk t).view.emb j)
  rw [h6]
  unfold tileScore regionScore rawScore
  simp only [e0, e1, e2, e3, e4, e5]

/-- An index of the array is in point t's block iff each coordinate is in the block's range. -/
theorem mem_block (t : Fin cfg0.N) (i : S64x2048.Idx) :
    i ∈ ((cfg0.win 6).blk t).view.set ↔ ∀ a : Fin 2, win0_6.index t a * S64x256.size a ≤ (i a).val
      ∧ (i a).val < win0_6.index t a * S64x256.size a + S64x256.size a := by
  show i ∈ ((View.whole main_v58).slice (win0_6.rect t)).set ↔ _
  rw [View.set_slice_whole, Rect.mem_set_unit]
  exact Iff.rfl

/-- Column k of the array lies in the block of point k / 256: the eight column blocks cover the array. -/
theorem covered (i : S64x2048.Idx) :
    ∃ t : Fin cfg0.N, (cfg0.win 6).flush t = true ∧ i ∈ ((cfg0.win 6).blk t).view.set := by
  have hi0 : (i 0).val < 64 := (i 0).isLt
  have hi1 : (i 1).val < 2048 := (i 1).isLt
  have hT : (i 1).val / 256 < cfg0.N := by show (i 1).val / 256 < 8; omega
  obtain ⟨-, -, -, -, -, -, -, -, -, -, -, -, g0, g1⟩ := block_indices ⟨(i 1).val / 256, hT⟩
  have g1' : win0_6.index ⟨(i 1).val / 256, hT⟩ (1 : Fin 2) = (i 1).val / 256 := g1
  refine ⟨⟨(i 1).val / 256, hT⟩, flush0_6 _, ?_⟩
  rw [mem_block]
  intro a
  match a with
  | ⟨0, _⟩ =>
    show win0_6.index ⟨(i 1).val / 256, hT⟩ (0 : Fin 2) * 64 ≤ (i 0).val
      ∧ (i 0).val < win0_6.index ⟨(i 1).val / 256, hT⟩ (0 : Fin 2) * 64 + 64
    omega
  | ⟨1, _⟩ =>
    show win0_6.index ⟨(i 1).val / 256, hT⟩ (1 : Fin 2) * 256 ≤ (i 1).val
      ∧ (i 1).val < win0_6.index ⟨(i 1).val / 256, hT⟩ (1 : Fin 2) * 256 + 256
    omega

/-- THE ARRAY after the region: the raw score of the arrays the region finds. -/
theorem region_array (c : Dev nD) : (dats m 0 c).arrAt 6 cfg0.N = regionScore m c :=
  (dats m 0 c).arrAt_eq_of_cover 6 (regionScore m c) (fun t _ => flushed_score m c t) covered

end Cert.PairScore

end
-- ==== Proof.HostSide.lean ====
/-
  The kernel program's host operations before its region, read as the arrays of Proof/Spec.lean.

  Before the region the host computes the new state (the same 38 operations as the reference), then derives the
  region's operands from it and from the first layer's weights w and bias:
    the state with every entry repeated four times along its row (a broadcast along a new last axis of extent 4
      and a row-major reshape: entry (b, k) reads the state at (b, k / 4));
    the transposed right half of w (a slice of columns 512..1023, then a transpose: entry (d, h) is w[h, 512 + d]);
    the row sums of the left half of w (a slice of columns 0..511, a sum along the row from zero, a reshape to one row);
    the bias as a one-row matrix (a reshape).
-/
import proofs.«107233_j46076409152346_2_alg».proof.Proof.Gen.KernelIdeal.Frame
import proofs.«107233_j46076409152346_2_alg».proof.Proof.Gen.ReferenceIdeal.Read
import proofs.«107233_j46076409152346_2_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.PairScore

open Idealize.ShloMosaic Idealize.ShloMosaic.ValueIdx Idealize.ShloMosaic.TcCoe Idealize.SL.Sem
open Cert.KernelIdeal
open scoped BigOperators

/-! ## The layout operations, as functions of their operand -/

/-- A vector of 512 reshaped to one row is the one-row matrix of Proof/Spec.lean. -/
theorem rowOf_of_layout (x : S512.Idx → EReal) :
    shapeCast S1x512 x Gen.shapeCasts_S512_S1x512 = rowOf x := by
  funext j
  refine shapeCast_apply x _ j (ix1 (n := 512) (j 1)) ?_
  rewrite [Shape.rowMajor_val_one, Shape.rowMajor_val_two]
  have h0 : (j 0).val < 1 := (j 0).isLt
  show (j 1).val = (j 0).val * 512 + (j 1).val
  omega

/-- Columns 512..1023 of the weights, transposed: entry (d, h) is w[h, 512 + d]. -/
theorem descT_of_layout (w : S512x1024.Idx → EReal) :
    transpose S512x512 [1, 0] (extractStridedSlice S512x512 ![0, 512] w Gen.slices_S512x1024_S512x512_0_512)
        Gen.transposes_S512x512_S512x512_1_0 = descT w := by
  funext p
  refine (transpose_apply [1, 0] _ _ p (ix2 (n0 := 512) (n1 := 512) (p 1) (p 0)) (fun b => match b with
    | ⟨0, _⟩ => rfl
    | ⟨1, _⟩ => rfl)).trans ?_
  exact extractStridedSlice_apply ![0, 512] w _ _
    (ix2 (n0 := 512) (n1 := 1024) (p 1) ⟨512 + (p 0).val, by have h : (p 0).val < 512 := (p 0).isLt; omega⟩)
    (fun a => match a with
      | ⟨0, _⟩ => by show (p 1).val = 0 + (p 1).val; omega
      | ⟨1, _⟩ => rfl)

/-- Columns 0..511 of the weights summed along the row from zero, as one row: entry h is Σ_{j<512} w[h, j]. -/
theorem leftSum_of_layout (w : S512x1024.Idx → EReal) :
    shapeCast S1x512
        (Host.reduceAdd (F := Ideal) (extractStridedSlice S512x512 ![0, 0] w Gen.slices_S512x1024_S512x512_0_0)
          (constant S_ .f32 0x00000000#32) Gen.reducesTo_S512x512_S512_d1 Gen.h_S_)
        Gen.shapeCasts_S512_S1x512 = leftSum w := by
  funext p
  refine (shapeCast_apply _ _ p (ix1 (n := 512) (p 1)) ?_).trans ?_
  · rewrite [Shape.rowMajor_val_one, Shape.rowMajor_val_two]
    have h0 : (p 0).val < 1 := (p 0).isLt
    show (p 1).val = (p 0).val * 512 + (p 1).val
    omega
  · simp only [Host.reduceAdd, Ideal.hostReduceAdd_def]
    rw [Ideal.hostReduceAdd_single Gen.reducesTo_S512x512_S512_d1 (by decide)]
    show Ideal.ofBits .f32 0x00000000#32 + _ = _
    rw [Ideal.ofBits_zero_f32, zero_add]
    refine Finset.sum_congr rfl fun k _ => ?_
    exact extractStridedSlice_apply ![0, 0] w _ _
      (ix2 (n0 := 512) (n1 := 1024) (p 1) ⟨k.val, by have h : k.val < 512 := k.isLt; omega⟩)
      (fun a => match a with
        | ⟨0, _⟩ => by show (p 1).val = 0 + (p 1).val; omega
        | ⟨1, _⟩ => by show k.val = 0 + k.val; omega)

/-- The state broadcast along a new last axis of extent 4 and reshaped row-major to 2048 columns: entry (b, k)
    reads the state at (b, k / 4), since the flat position b · 2048 + k is (b · 512 + k / 4) · 4 + k % 4. -/
theorem rep4_of_layout (x : S64x512.Idx → EReal) :
    shapeCast S64x2048 (broadcastInDim S64x512x4 ![0, 1] Gen.bcast_S64x512_S64x512x4_0_1 x)
        Gen.shapeCasts_S64x512x4_S64x2048 = rep4 x := by
  funext i
  have h0 : (i 0).val < 64 := (i 0).isLt
  have h1 : (i 1).val < 2048 := (i 1).isLt
  refine (shapeCast_apply _ _ i
    (ix3 (n0 := 64) (n1 := 512) (n2 := 4) (i 0) ⟨(i 1).val / 4, by omega⟩ ⟨(i 1).val % 4, by omega⟩) ?_).trans ?_
  · rewrite [Shape.rowMajor_val_three, Shape.rowMajor_val_two]
    show ((i 0).val * 512 + (i 1).val / 4) * 4 + (i 1).val % 4 = (i 0).val * 2048 + (i 1).val
    omega
  · exact broadcastInDim_apply _ _ x _ (ix2 (n0 := 64) (n1 := 512) (i 0) ⟨(i 1).val / 4, by omega⟩)
      (fun a => match a with
        | ⟨0, _⟩ => by show (i 0).val = if (64 : Nat) = 1 then 0 else (i 0).val; rw [if_neg (by decide)]
        | ⟨1, _⟩ => by show (i 1).val / 4 = if (512 : Nat) = 1 then 0 else (i 1).val / 4; rw [if_neg (by decide)])

/-! ## The host operations before the region -/

/-- Running one line of operations and then another is running their concatenation. -/
theorem after_append {τ' : Topo} {sig' : RefSig} {Val : EltTy → Type} (l₁ l₂ : List (HloOp τ' sig' Val))
    (W : Valuation τ' sig' Val) :
    StableHlo.after (l₁ ++ l₂) W = StableHlo.after l₂ (StableHlo.after l₁ W) := by
  induction l₁ generalizing W with
  | nil => rfl
  | cons op l ih => simp only [List.cons_append, StableHlo.after_cons, ih]

/-- Three lines run in order: the last one runs from what the first two leave. -/
theorem after_flatten3 {τ' : Topo} {sig' : RefSig} {Val : EltTy → Type} (l₀ l₁ l₂ : List (HloOp τ' sig' Val))
    (W : Valuation τ' sig' Val) :
    StableHlo.after (List.flatten [l₀, l₁, l₂]) W = StableHlo.after l₂ (StableHlo.after (l₀ ++ l₁) W) := by
  rw [List.flatten_cons, List.flatten_cons, List.flatten_cons, List.flatten_nil, List.append_nil,
    ← List.append_assoc, after_append]

section
variable (m : (ℓ : Loc nD τ sig) → Buf (Elt Ideal) ℓ) (c : Dev nD)

/-- What the buffers hold after the first two lines of host operations (the new state, the stop unit and its
    rounding), from the launch contents. -/
def W0 : Valuation τ sig (Elt Ideal) :=
  StableHlo.after (Gen.hostOps0 (F := Ideal) ++ Gen.hostOps0_1 (F := Ideal)) (fun b => m (c, b))

/-- The contents at the region's entry are the third line's, run from there. -/
theorem V0_eq : Gen.V0 m c = StableHlo.after (Gen.hostOps0_2 (F := Ideal)) (W0 m c) :=
  after_flatten3 _ _ _ _

/-- The third line writes none of the buffers the first two lines' results and the arguments live in. -/
theorem tail_keeps {r : Ref sig .tc} (W : Valuation τ sig (Elt Ideal))
    (hr : r ∉ [main_v50, main_v51, main_v52, main_v53, main_cst_6, main_v54, main_v55, main_v56, main_v57]) :
    StableHlo.after (Gen.hostOps0_2 (F := Ideal)) W (Proc.devRef .tc r) = W (Proc.devRef .tc r) :=
  StableHlo.after_of_writes_sub (W := [main_v50, main_v51, main_v52, main_v53, main_cst_6, main_v54, main_v55, main_v56, main_v57])
    _ W (by
      simp only [Gen.hostOps0_2, List.Forall, StableHlo.nullary_writes, StableHlo.unary_writes, StableHlo.binary_writes,
        StableHlo.reshape_writes, List.map, List.toFinset_cons, List.toFinset_nil]
      repeat' apply And.intro
      all_goals simp) hr

/-- The bias row after the third line: the reshape of argument 11 as the first two lines leave it. -/
theorem tail_v57 (W : Valuation τ sig (Elt Ideal)) :
    (StableHlo.after (Gen.hostOps0_2 (F := Ideal)) W (Proc.devRef .tc main_v57) : S1x512.Idx → EReal)
      = shapeCast S1x512 (W (Proc.devRef .tc main_arg11) : S512.Idx → EReal) Gen.shapeCasts_S512_S1x512 := by
  simp only [Gen.hostOps0_2]
  after_results
  rfl

/-- The transposed right half of the weights after the third line. -/
theorem tail_v56 (W : Valuation τ sig (Elt Ideal)) :
    (StableHlo.after (Gen.hostOps0_2 (F := Ideal)) W (Proc.devRef .tc main_v56) : S512x512.Idx → EReal)
      = transpose S512x512 [1, 0]
          (extractStridedSlice S512x512 ![0, 512] (W (Proc.devRef .tc main_arg10) : S512x1024.Idx → EReal)
            Gen.slices_S512x1024_S512x512_0_512)
          Gen.transposes_S512x512_S512x512_1_0 := by
  simp only [Gen.hostOps0_2]
  after_results

/-- The row sums of the left half of the weights after the third line. -/
theorem tail_v55 (W : Valuation τ sig (Elt Ideal)) :
    (StableHlo.after (Gen.hostOps0_2 (F := Ideal)) W (Proc.devRef .tc main_v55) : S1x512.Idx → EReal)
      = shapeCast S1x512
          (Host.reduceAdd (F := Ideal)
            (extractStridedSlice S512x512 ![0, 0] (W (Proc.devRef .tc main_arg10) : S512x1024.Idx → EReal)
              Gen.slices_S512x1024_S512x512_0_0)
            (constant S_ .f32 0x00000000#32) Gen.reducesTo_S512x512_S512_d1 Gen.h_S_)
          Gen.shapeCasts_S512_S1x512 := by
  simp only [Gen.hostOps0_2]
  after_results
  rfl

/-- The repeated state after the third line. -/
theorem tail_v51 (W : Valuation τ sig (Elt Ideal)) :
    (StableHlo.after (Gen.hostOps0_2 (F := Ideal)) W (Proc.devRef .tc main_v51) : S64x2048.Idx → EReal)
      = shapeCast S64x2048
          (broadcastInDim S64x512x4 ![0, 1] Gen.bcast_S64x512_S64x512x4_0_1
            (W (Proc.devRef .tc main_v37) : S64x512.Idx → EReal))
          Gen.shapeCasts_S64x512x4_S64x2048 := by
  simp only [Gen.hostOps0_2]
  after_results
  rfl

/-- The first layer's weights are still the launched argument when the third line runs. -/
theorem W0_arg10 : W0 m c (Proc.devRef .tc main_arg10) = m ((c : Thread nD τ).loc main_arg10) := by
  rw [← tail_keeps (W0 m c) (r := main_arg10) (by decide), ← V0_eq]
  exact Gen.V_main_arg10 m c

/-- And so is the first layer's bias. -/
theorem W0_arg11 : W0 m c (Proc.devRef .tc main_arg11) = m ((c : Thread nD τ).loc main_arg11) := by
  rw [← tail_keeps (W0 m c) (r := main_arg11) (by decide), ← V0_eq]
  exact Gen.V_main_arg11 m c

/-- The new state the third line reads is the one the region finds. -/
theorem W0_v37 : W0 m c (Proc.devRef .tc main_v37) = Gen.V m c main_v37 := by
  rw [← tail_keeps (W0 m c) (r := main_v37) (by decide), ← V0_eq]

/-- (1) The region's state operand is the new state with every entry repeated four times along its row. -/
theorem V_v51 : (Gen.V m c main_v51 : S64x2048.Idx → EReal) = rep4 (Gen.V m c main_v37) := by
  show Gen.V0 m c (Proc.devRef .tc main_v51) = _
  rw [V0_eq, tail_v51, W0_v37, rep4_of_layout]

/-- (2) The region's descriptor weights are the transposed right half of the first layer's weights. -/
theorem V_v56 : (Gen.V m c main_v56 : S512x512.Idx → EReal) = descT (m ((c : Thread nD τ).loc main_arg10)) := by
  show Gen.V0 m c (Proc.devRef .tc main_v56) = _
  rw [V0_eq, tail_v56, W0_arg10, descT_of_layout]

/-- (3) The region's row-sum operand is the row sums of the left half of the first layer's weights. -/
theorem V_v55 : (Gen.V m c main_v55 : S1x512.Idx → EReal) = leftSum (m ((c : Thread nD τ).loc main_arg10)) := by
  show Gen.V0 m c (Proc.devRef .tc main_v55) = _
  rw [V0_eq, tail_v55, W0_arg10, leftSum_of_layout]

/-- (4) The region's bias operand is the first layer's bias as one row. -/
theorem V_v57 : (Gen.V m c main_v57 : S1x512.Idx → EReal) = rowOf (m ((c : Thread nD τ).loc main_arg11)) := by
  show Gen.V0 m c (Proc.devRef .tc main_v57) = _
  rw [V0_eq, tail_v57, W0_arg11, rowOf_of_layout]

/-! ## The operations the two programs share

The first 38 host operations of the kernel program (the gated state), and the ten after them (the stop unit and its
rounding), are the reference's, operation by operation: the value each leaves is the reference's value of the same
arguments. -/

set_option maxHeartbeats 2000000 in
/-- (5) The new state the region finds is the reference's new state of the launched arguments. -/
theorem V_v37 :
    (Gen.V m c main_v37 : S64x512.Idx → EReal)
      = Cert.ReferenceIdeal.Read.val_main_v37 (F := Ideal) (m ((c : Thread nD τ).loc main_arg0)) (m ((c : Thread nD τ).loc main_arg1))
          (m ((c : Thread nD τ).loc main_arg4)) (m ((c : Thread nD τ).loc main_arg5)) (m ((c : Thread nD τ).loc main_arg6)) (m ((c : Thread nD τ).loc main_arg7)) := by
  dsimp only [Gen.V, Gen.V0]
  simp only [Gen.hostOps0, Gen.hostOps0_1, Gen.hostOps0_2, List.flatten_cons, List.flatten_nil, List.append_nil,
    List.cons_append, List.nil_append]
  after_results_simp
  rfl

set_option maxHeartbeats 2000000 in
/-- (6) The stop unit the region finds is the reference's. -/
theorem V_v48 :
    (Gen.V m c main_v48 : S64x1.Idx → EReal)
      = Cert.ReferenceIdeal.Read.val_main_v48 (F := Ideal) (m ((c : Thread nD τ).loc main_arg0)) (m ((c : Thread nD τ).loc main_arg1))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) := by
  dsimp only [Gen.V, Gen.V0]
  simp only [Gen.hostOps0, Gen.hostOps0_1, Gen.hostOps0_2, List.flatten_cons, List.flatten_nil, List.append_nil,
    List.cons_append, List.nil_append]
  after_results_simp
  rfl

set_option maxHeartbeats 2000000 in
/-- (7) The rounded stop unit the region finds is the reference's. -/
theorem V_v49 :
    (Gen.V m c main_v49 : S64x1.Idx → EReal)
      = Cert.ReferenceIdeal.Read.val_main_v49 (F := Ideal) (m ((c : Thread nD τ).loc main_arg0)) (m ((c : Thread nD τ).loc main_arg1))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) := by
  dsimp only [Gen.V, Gen.V0]
  simp only [Gen.hostOps0, Gen.hostOps0_1, Gen.hostOps0_2, List.flatten_cons, List.flatten_nil, List.append_nil,
    List.cons_append, List.nil_append]
  after_results_simp
  rfl

end

end Cert.PairScore

end
-- ==== Proof.MsgHead.lean ====
/-
  After the score array: the message distribution.

  Both programs finish with the same whole-array operations on the score array y (64 × 2048): the softmax of
  each row over the 2048 classes (subtract the row maximum, exponentiate, divide by the row sum); the average
  of the class descriptors under those weights (a matrix product with the 2048 × 512 descriptor array); the
  message head, tanh(ns · A + b + avg · B) · C + c with ns the new state; and the logistic 1 / (1 + e^{-·}) of
  the result, a 64 × 64 array.  msgDist is that composition, written once over the score array, the new state
  and the six arrays it reads; the reference program's stages after its score array compose to exactly it.
-/
import proofs.«107233_j46076409152346_2_alg».proof.KernelIdeal
import proofs.«107233_j46076409152346_2_alg».proof.Proof.Gen.ReferenceIdeal.Read
import Idealize.ShloMosaic.PureOps.Ideal
import Idealize.ShloMosaic.Lib.ValueIdx

noncomputable section

namespace Cert.PairScore

open Idealize.ShloMosaic Cert.KernelIdeal Cert.KernelIdeal.Facts₀

variable [Cert.KernelIdeal.Facts₀]

/-- THE MESSAGE DISTRIBUTION from the score array y, the new state ns, the class descriptors a3, the head's
    weights a14, a16, a17 and biases a15, a18: row softmax of y, descriptor average, message head, logistic. -/
def msgDist (y : S64x2048.Idx → EReal) (ns : S64x512.Idx → EReal) (a3 : S2048x512.Idx → EReal)
    (a14 : S512x512.Idx → EReal) (a15 : S512.Idx → EReal) (a16 : S512x512.Idx → EReal)
    (a17 : S64x512.Idx → EReal) (a18 : S64.Idx → EReal) : S64x64.Idx → EReal :=
  -- the row maximum, at least -∞
  let v62 : FVec Ideal S64 .f32 :=
    Host.reduce FloatOps.maximumf (y : FVec Ideal S64x2048 .f32) (constant (F := Ideal) S_ .f32 0xFF800000#32)
      reducesTo_S64x2048_S64_d1 h_S_
  let v63 : FVec Ideal S64 .f32 := broadcastInDim S64 ![] bcast_S_S64 (constant (F := Ideal) S_ .f32 0xFF800000#32)
  let v64 : FVec Ideal S64 .f32 := maximumf v63 v62
  let v65 : FVec Ideal S64x1 .f32 := broadcastInDim S64x1 ![0] bcast_S64_S64x1_0 v64
  let v66 : FVec Ideal S64x2048 .f32 := broadcastInDim S64x2048 ![0, 1] bcast_S64x1_S64x2048_0_1 v65
  -- the exponentials of the differences, and their row sums
  let v67 : FVec Ideal S64x2048 .f32 := subf (y : FVec Ideal S64x2048 .f32) v66
  let v68 : FVec Ideal S64x2048 .f32 := Host.exp v67
  let v69 : FVec Ideal S64 .f32 :=
    Host.reduceAdd v68 (constant (F := Ideal) S_ .f32 0x00000000#32) reducesTo_S64x2048_S64_d1 h_S_
  let v70 : FVec Ideal S64x1 .f32 := broadcastInDim S64x1 ![0] bcast_S64_S64x1_0 v69
  let v71 : FVec Ideal S64x2048 .f32 := broadcastInDim S64x2048 ![0, 1] bcast_S64x1_S64x2048_0_1 v70
  -- the softmax weights and the descriptor average
  let v72 : FVec Ideal S64x2048 .f32 := Host.divf v68 v71
  let v73 : FVec Ideal S64x512 .f32 :=
    Host.dotGeneral (φ₁ := .f32) (φ₂ := .f32) dot_S64x2048_S2048x512_S64x512_1_0_0_1_n_n (some .fp32) v72 (a3 : FVec Ideal S2048x512 .f32)
  -- the message head
  let v74 : FVec Ideal S512x512 .f32 := transpose S512x512 [1, 0] (a14 : FVec Ideal S512x512 .f32) transposes_S512x512_S512x512_1_0
  let v75 : FVec Ideal S64x512 .f32 :=
    Host.dotGeneral (φ₁ := .f32) (φ₂ := .f32) dot_S64x512_S512x512_S64x512_1_0_0_1_n_n none (ns : FVec Ideal S64x512 .f32) v74
  let v76 : FVec Ideal S1x512 .f32 := broadcastInDim S1x512 ![1] bcast_S512_S1x512_1 (a15 : FVec Ideal S512 .f32)
  let v77 : FVec Ideal S64x512 .f32 := broadcastInDim S64x512 ![0, 1] bcast_S1x512_S64x512_0_1 v76
  let v78 : FVec Ideal S64x512 .f32 := addf v75 v77
  let v79 : FVec Ideal S512x512 .f32 := transpose S512x512 [1, 0] (a16 : FVec Ideal S512x512 .f32) transposes_S512x512_S512x512_1_0
  let v80 : FVec Ideal S64x512 .f32 := Host.dotGeneral dot_S64x512_S512x512_S64x512_1_0_0_1_n_n none v73 v79
  let v81 : FVec Ideal S64x512 .f32 := addf v78 v80
  let v82 : FVec Ideal S64x512 .f32 := Host.tanh v81
  let v83 : FVec Ideal S512x64 .f32 := transpose S512x64 [1, 0] (a17 : FVec Ideal S64x512 .f32) transposes_S64x512_S512x64_1_0
  let v84 : FVec Ideal S64x64 .f32 := Host.dotGeneral dot_S64x512_S512x64_S64x64_1_0_0_1_n_n none v82 v83
  let v85 : FVec Ideal S1x64 .f32 := broadcastInDim S1x64 ![1] bcast_S64_S1x64_1 (a18 : FVec Ideal S64 .f32)
  let v86 : FVec Ideal S64x64 .f32 := broadcastInDim S64x64 ![0, 1] bcast_S1x64_S64x64_0_1 v85
  let v87 : FVec Ideal S64x64 .f32 := addf v84 v86
  -- the logistic of the head's output
  let v88 : FVec Ideal S64x64 .f32 := Host.negf v87
  let v89 : FVec Ideal S64x64 .f32 := Host.exp v88
  let v90 : FVec Ideal S64x64 .f32 := broadcastInDim S64x64 ![] bcast_S_S64x64 (constant (F := Ideal) S_ .f32 0x3F800000#32)
  let v91 : FVec Ideal S64x64 .f32 := addf v90 v89
  let v92 : FVec Ideal S64x64 .f32 := broadcastInDim S64x64 ![] bcast_S_S64x64 (constant (F := Ideal) S_ .f32 0x3F800000#32)
  let v93 : FVec Ideal S64x64 .f32 := Host.divf v92 v91
  v93

/-! ## The reference program's stages after its score array -/

/-- The reference's stages from its row maximum to its last division compose to the message distribution of
    its own score array and new state (the precision annotation of the descriptor product does not enter the
    exact value). -/
theorem stage_v100 (x0 : (⟨S64x64, .f32⟩ : BufTy).Contents (Elt Ideal)) (x1 : (⟨S64x512, .f32⟩ : BufTy).Contents (Elt Ideal))
    (x3 : (⟨S2048x512, .f32⟩ : BufTy).Contents (Elt Ideal)) (x4 : (⟨S1536x64, .f32⟩ : BufTy).Contents (Elt Ideal))
    (x5 : (⟨S1536x512, .f32⟩ : BufTy).Contents (Elt Ideal)) (x6 x7 : (⟨S1536, .f32⟩ : BufTy).Contents (Elt Ideal))
    (x10 : (⟨S512x1024, .f32⟩ : BufTy).Contents (Elt Ideal)) (x11 : (⟨S512, .f32⟩ : BufTy).Contents (Elt Ideal))
    (x12 : (⟨S1x512, .f32⟩ : BufTy).Contents (Elt Ideal)) (x13 : (⟨S1, .f32⟩ : BufTy).Contents (Elt Ideal))
    (x14 : (⟨S512x512, .f32⟩ : BufTy).Contents (Elt Ideal)) (x15 : (⟨S512, .f32⟩ : BufTy).Contents (Elt Ideal))
    (x16 : (⟨S512x512, .f32⟩ : BufTy).Contents (Elt Ideal)) (x17 : (⟨S64x512, .f32⟩ : BufTy).Contents (Elt Ideal))
    (x18 : (⟨S64, .f32⟩ : BufTy).Contents (Elt Ideal)) :
    Cert.ReferenceIdeal.Read.val_main_v100 (F := Ideal) x0 x1 x3 x4 x5 x6 x7 x10 x11 x12 x13 x14 x15 x16 x17 x18
      = msgDist (Cert.ReferenceIdeal.Read.val_main_v68 (F := Ideal) x0 x1 x3 x4 x5 x6 x7 x10 x11 x12 x13)
          (Cert.ReferenceIdeal.Read.val_main_v37 (F := Ideal) x0 x1 x4 x5 x6 x7) x3 x14 x15 x16 x17 x18 := by
  unfold Cert.ReferenceIdeal.Read.val_main_v100 Cert.ReferenceIdeal.Read.val_main_v99
    Cert.ReferenceIdeal.Read.val_main_cst_11 Cert.ReferenceIdeal.Read.val_main_v98
    Cert.ReferenceIdeal.Read.val_main_v97 Cert.ReferenceIdeal.Read.val_main_cst_10
    Cert.ReferenceIdeal.Read.val_main_v96 Cert.ReferenceIdeal.Read.val_main_v95
    Cert.ReferenceIdeal.Read.val_main_v94 Cert.ReferenceIdeal.Read.val_main_v93
    Cert.ReferenceIdeal.Read.val_main_v92 Cert.ReferenceIdeal.Read.val_main_v91
    Cert.ReferenceIdeal.Read.val_main_v90 Cert.ReferenceIdeal.Read.val_main_v89
    Cert.ReferenceIdeal.Read.val_main_v88 Cert.ReferenceIdeal.Read.val_main_v87
    Cert.ReferenceIdeal.Read.val_main_v86 Cert.ReferenceIdeal.Read.val_main_v85
    Cert.ReferenceIdeal.Read.val_main_v84 Cert.ReferenceIdeal.Read.val_main_v83
    Cert.ReferenceIdeal.Read.val_main_v82 Cert.ReferenceIdeal.Read.val_main_v81
    Cert.ReferenceIdeal.Read.val_main_v80 Cert.ReferenceIdeal.Read.val_main_v79
    Cert.ReferenceIdeal.Read.val_main_v78 Cert.ReferenceIdeal.Read.val_main_v77
    Cert.ReferenceIdeal.Read.val_main_v76 Cert.ReferenceIdeal.Read.val_main_cst_9
    Cert.ReferenceIdeal.Read.val_main_v75 Cert.ReferenceIdeal.Read.val_main_v74
    Cert.ReferenceIdeal.Read.val_main_v73 Cert.ReferenceIdeal.Read.val_main_v72
    Cert.ReferenceIdeal.Read.val_main_v71 Cert.ReferenceIdeal.Read.val_main_v70
    Cert.ReferenceIdeal.Read.val_main_cst_8 Cert.ReferenceIdeal.Read.val_main_v69
    Cert.ReferenceIdeal.Read.val_main_cst_7
  unfold msgDist
  rfl

omit [Cert.KernelIdeal.Facts₀] in
/-- The reference's last stage rounds the message distribution to the nearest integer, ties to even. -/
theorem stage_v101 (x0 : (⟨S64x64, .f32⟩ : BufTy).Contents (Elt Ideal)) (x1 : (⟨S64x512, .f32⟩ : BufTy).Contents (Elt Ideal))
    (x3 : (⟨S2048x512, .f32⟩ : BufTy).Contents (Elt Ideal)) (x4 : (⟨S1536x64, .f32⟩ : BufTy).Contents (Elt Ideal))
    (x5 : (⟨S1536x512, .f32⟩ : BufTy).Contents (Elt Ideal)) (x6 x7 : (⟨S1536, .f32⟩ : BufTy).Contents (Elt Ideal))
    (x10 : (⟨S512x1024, .f32⟩ : BufTy).Contents (Elt Ideal)) (x11 : (⟨S512, .f32⟩ : BufTy).Contents (Elt Ideal))
    (x12 : (⟨S1x512, .f32⟩ : BufTy).Contents (Elt Ideal)) (x13 : (⟨S1, .f32⟩ : BufTy).Contents (Elt Ideal))
    (x14 : (⟨S512x512, .f32⟩ : BufTy).Contents (Elt Ideal)) (x15 : (⟨S512, .f32⟩ : BufTy).Contents (Elt Ideal))
    (x16 : (⟨S512x512, .f32⟩ : BufTy).Contents (Elt Ideal)) (x17 : (⟨S64x512, .f32⟩ : BufTy).Contents (Elt Ideal))
    (x18 : (⟨S64, .f32⟩ : BufTy).Contents (Elt Ideal)) :
    Cert.ReferenceIdeal.Read.val_main_v101 (F := Ideal) x0 x1 x3 x4 x5 x6 x7 x10 x11 x12 x13 x14 x15 x16 x17 x18
      = Host.roundeven (F := Ideal) (φ := .f32)
          (Cert.ReferenceIdeal.Read.val_main_v100 (F := Ideal) x0 x1 x3 x4 x5 x6 x7 x10 x11 x12 x13 x14 x15 x16 x17 x18) := rfl

end Cert.PairScore

end
-- ==== Proof.Tail.lean ====
/-
  The host operations after the kernel's region, and the same stretch of the reference.

  After the region the kernel program adds the output bias to the region's array — that sum is the score of
  Proof/Spec.lean —, takes the softmax of the score along each row (subtract the row maximum, exponentiate, divide
  by the row sum), multiplies it with the class descriptors, and feeds the result together with the new state
  through the message layer (two 512 x 512 products, a bias, tanh), the output layer (a 512 x 64 product and a
  bias), the logistic function written 1 / (1 + exp(-x)), and a rounding.  The reference runs the same operations
  on its own score array.  Both are one function, msgDist, of the score, the new state and six arguments.
-/
import proofs.«107233_j46076409152346_2_alg».proof.Proof.Gen.KernelIdeal.Frame
import proofs.«107233_j46076409152346_2_alg».proof.Proof.Gen.ReferenceIdeal.Read
import proofs.«107233_j46076409152346_2_alg».proof.Proof.Spec
import proofs.«107233_j46076409152346_2_alg».proof.Proof.Tiles
import proofs.«107233_j46076409152346_2_alg».proof.Proof.HostSide
import proofs.«107233_j46076409152346_2_alg».proof.Proof.MsgHead
import Idealize.ShloMosaic.Lib.StableHlo.Run
import Idealize.ShloMosaic.Lib.Pipeline.Value
import Idealize.ShloMosaic.PureOps.Ideal.Laws

noncomputable section

namespace Cert.PairScore

open Idealize.ShloMosaic Idealize.ShloMosaic.ValueIdx Idealize.ShloMosaic.TcCoe Idealize.SL.Sem
open Cert.KernelIdeal
open scoped BigOperators

/-! ## The kernel program's operations after the region -/

/-- A one-element vector reshaped to a scalar and splat over the score's shape reads its one element. -/
theorem bias_splat (x : S1.Idx → EReal) (i : S64x2048.Idx) :
    broadcastInDim S64x2048 ![] Gen.bcast_S_S64x2048 (shapeCast S_ x Gen.shapeCasts_S1_S_) i = x (ix1 (n := 1) 0) := by
  refine (broadcastInDim_apply _ _ _ i ix0 (fun a => a.elim0)).trans ?_
  refine shapeCast_apply x _ ix0 (ix1 (n := 1) 0) ?_
  rewrite [Shape.rowMajor_val_one]
  have h : (S_.rowMajor ix0).val < S_.numel := (S_.rowMajor ix0).isLt
  have h1 : S_.numel = 1 := rfl
  show (0 : Nat) = (S_.rowMajor ix0).val
  omega

section
variable (m : (ℓ : Loc nD τ sig) → Buf (Elt Ideal) ℓ) (c : Dev nD)

/-- What the buffers hold when the region is left: its arrays as the region leaves them, every other buffer as
    the region found it. -/
def X0 : Valuation τ sig (Elt Ideal) :=
  Pipeline.withArrays (cfgs 0).spec c (Gen.V0 m c) fun w => (Gen.dats m 0 c).arrAt w (cfgs 0).N

/-- The contents after the run are the later operations', run from there. -/
theorem tail_eq (b : Ref sig .tc) :
    (Pipeline.afterTail₀ cfgs (Gen.dats m) 0 (Gen.V0 m) [Gen.hostOps1, Gen.hostOps1_1] c b)
      = StableHlo.after (Gen.hostOps1 (F := Ideal) ++ Gen.hostOps1_1 (F := Ideal)) (X0 m c) (Proc.devRef .tc b) := by
  unfold Pipeline.afterTail₀ X0
  rw [List.flatten_cons, List.flatten_cons, List.flatten_nil, List.append_nil]

/-- The region's output array when the region is left is the raw score of the arrays the region found. -/
theorem X0_v58 : (X0 m c (Proc.devRef .tc main_v58) : S64x2048.Idx → EReal) = regionScore m c :=
  (Pipeline.withArrays_arr spec0 Gen.launch0.win.arr_inj c _ _ 6).trans (region_array m c)

/-- A buffer that is no array of the region is as the region found it. -/
theorem X0_of_ne (b : Ref sig .tc) (hb : ∀ w, Pipeline.arrRef spec0 w ≠ b) :
    X0 m c (Proc.devRef .tc b) = Gen.V m c b :=
  Pipeline.withArrays_of_ne _ c (Gen.V0 m c) _ b hb

/-- The class descriptors are an array the region only reads: at its exit they are the launched argument. -/
theorem X0_arg3 : X0 m c (Proc.devRef .tc main_arg3) = m ((c : Thread nD τ).loc main_arg3) :=
  (Pipeline.withArrays_arr spec0 Gen.launch0.win.arr_inj c _ _ 1).trans
    (((Gen.dats m 0 c).arrAt_in 1 rfl _).trans ((Gen.A_eq m c 1).trans (Gen.V_main_arg3 m c)))

/-- The later operations write their own results only. -/
theorem later_keeps {r : Ref sig .tc} (X : Valuation τ sig (Elt Ideal))
    (hr : r ∉ [main_v59, main_v60, main_v61, main_cst_7, main_v62, main_cst_8, main_v63, main_v64, main_v65, main_v66, main_v67, main_v68, main_cst_9, main_v69, main_v70, main_v71, main_v72, main_v73, main_v74, main_v75, main_v76, main_v77, main_v78, main_v79, main_v80, main_v81, main_v82, main_v83, main_v84, main_v85, main_v86, main_v87, main_v88, main_v89, main_cst_10, main_v90, main_v91, main_cst_11, main_v92, main_v93, main_v94]) :
    StableHlo.after (Gen.hostOps1 (F := Ideal) ++ Gen.hostOps1_1 (F := Ideal)) X (Proc.devRef .tc r)
      = X (Proc.devRef .tc r) :=
  StableHlo.after_of_writes_sub (W := [main_v59, main_v60, main_v61, main_cst_7, main_v62, main_cst_8, main_v63, main_v64, main_v65, main_v66, main_v67, main_v68, main_cst_9, main_v69, main_v70, main_v71, main_v72, main_v73, main_v74, main_v75, main_v76, main_v77, main_v78, main_v79, main_v80, main_v81, main_v82, main_v83, main_v84, main_v85, main_v86, main_v87, main_v88, main_v89, main_cst_10, main_v90, main_v91, main_cst_11, main_v92, main_v93, main_v94])
    _ X (by
      simp only [Gen.hostOps1, Gen.hostOps1_1, List.cons_append, List.nil_append, List.Forall, StableHlo.nullary_writes,
        StableHlo.unary_writes, StableHlo.binary_writes, StableHlo.reshape_writes]
      repeat' apply And.intro
      all_goals exact Finset.singleton_subset_iff.mpr (List.mem_toFinset.mpr (List.mem_map_of_mem (by decide)))) hr

/-- The biased score, from any contents at the region's exit. -/
theorem later_v61 (X : Valuation τ sig (Elt Ideal)) :
    (StableHlo.after (Gen.hostOps1 (F := Ideal) ++ Gen.hostOps1_1 (F := Ideal)) X (Proc.devRef .tc main_v61)
        : S64x2048.Idx → EReal)
      = addf (F := Ideal) (s := S64x2048) (φ := .f32) (X (Proc.devRef .tc main_v58))
          (broadcastInDim (s := S_) (α := EReal) S64x2048 ![] Gen.bcast_S_S64x2048
            (shapeCast (s := S1) (α := EReal) S_ (X (Proc.devRef .tc main_arg13)) Gen.shapeCasts_S1_S_)) := by
  simp only [Gen.hostOps1, Gen.hostOps1_1, List.cons_append, List.nil_append]
  after_results
  rfl

/-- THE SCORE after the run: the region's array plus the output bias is the score of Proof/Spec.lean of the new
    state and the launched arguments. -/
theorem tail_v61 :
    ((Pipeline.afterTail₀ cfgs (Gen.dats m) 0 (Gen.V0 m) [Gen.hostOps1, Gen.hostOps1_1] c main_v61) : S64x2048.Idx → EReal)
      = score (Gen.V m c main_v37) (m ((c : Thread nD τ).loc main_arg3)) (m ((c : Thread nD τ).loc main_arg10))
          (m ((c : Thread nD τ).loc main_arg11)) (m ((c : Thread nD τ).loc main_arg12)) (m ((c : Thread nD τ).loc main_arg13)) := by
  rw [tail_eq, later_v61, X0_v58, X0_of_ne m c main_arg13 (by decide), Gen.V_main_arg13]
  unfold regionScore
  rw [V_v51, V_v56, V_v55, V_v57, Gen.V_main_arg3, Gen.V_main_arg12]
  funext i
  refine (congrArg (rawScore _ _ _ _ _ _ i + ·) (bias_splat (m ((c : Thread nD τ).loc main_arg13)) i)).trans ?_
  rfl

/-- The stop unit is not touched after the region. -/
theorem tail_v48 :
    ((Pipeline.afterTail₀ cfgs (Gen.dats m) 0 (Gen.V0 m) [Gen.hostOps1, Gen.hostOps1_1] c main_v48) : S64x1.Idx → EReal)
      = Gen.V m c main_v48 := by
  rw [tail_eq, later_keeps (X0 m c) (r := main_v48) (by decide), X0_of_ne m c main_v48 (by decide)]

/-- Nor is its rounding. -/
theorem tail_v49 :
    ((Pipeline.afterTail₀ cfgs (Gen.dats m) 0 (Gen.V0 m) [Gen.hostOps1, Gen.hostOps1_1] c main_v49) : S64x1.Idx → EReal)
      = Gen.V m c main_v49 := by
  rw [tail_eq, later_keeps (X0 m c) (r := main_v49) (by decide), X0_of_ne m c main_v49 (by decide)]

/-- The last operation rounds the message distribution, from any contents at the region's exit. -/
theorem later_v94 (X : Valuation τ sig (Elt Ideal)) :
    (StableHlo.after (Gen.hostOps1 (F := Ideal) ++ Gen.hostOps1_1 (F := Ideal)) X (Proc.devRef .tc main_v94)
        : S64x64.Idx → EReal)
      = Host.roundeven (F := Ideal) (s := S64x64) (φ := .f32)
          (StableHlo.after (Gen.hostOps1 (F := Ideal) ++ Gen.hostOps1_1 (F := Ideal)) X (Proc.devRef .tc main_v93)) := by
  rw [after_append]
  generalize StableHlo.after (Gen.hostOps1 (F := Ideal)) X = Y
  simp only [Gen.hostOps1_1]
  after_results
  rfl

/-- The rounded message distribution after the run is the rounding of the message distribution after the run. -/
theorem tail_v94 :
    ((Pipeline.afterTail₀ cfgs (Gen.dats m) 0 (Gen.V0 m) [Gen.hostOps1, Gen.hostOps1_1] c main_v94) : S64x64.Idx → EReal)
      = Host.roundeven (F := Ideal) (s := S64x64) (φ := .f32)
          (Pipeline.afterTail₀ cfgs (Gen.dats m) 0 (Gen.V0 m) [Gen.hostOps1, Gen.hostOps1_1] c main_v93) := by
  rw [tail_eq, tail_eq, later_v94]

set_option maxHeartbeats 2000000 in
/-- The message distribution, from any contents at the region's exit: the later operations from the softmax on
    compose to msgDist of the biased score, the new state and the six arguments they read. -/
theorem later_v93 (X : Valuation τ sig (Elt Ideal)) :
    (StableHlo.after (Gen.hostOps1 (F := Ideal) ++ Gen.hostOps1_1 (F := Ideal)) X (Proc.devRef .tc main_v93)
        : S64x64.Idx → EReal)
      = msgDist
          (StableHlo.after (Gen.hostOps1 (F := Ideal) ++ Gen.hostOps1_1 (F := Ideal)) X (Proc.devRef .tc main_v61))
          (X (Proc.devRef .tc main_v37)) (X (Proc.devRef .tc main_arg3)) (X (Proc.devRef .tc main_arg14))
          (X (Proc.devRef .tc main_arg15)) (X (Proc.devRef .tc main_arg16)) (X (Proc.devRef .tc main_arg17))
          (X (Proc.devRef .tc main_arg18)) := by
  simp only [Gen.hostOps1, Gen.hostOps1_1, List.cons_append, List.nil_append]
  after_results_simp
  rfl

/-- THE MESSAGE DISTRIBUTION after the run: msgDist of the score after the run, the new state and the launched
    arguments. -/
theorem tail_v93 :
    ((Pipeline.afterTail₀ cfgs (Gen.dats m) 0 (Gen.V0 m) [Gen.hostOps1, Gen.hostOps1_1] c main_v93) : S64x64.Idx → EReal)
      = msgDist (Pipeline.afterTail₀ cfgs (Gen.dats m) 0 (Gen.V0 m) [Gen.hostOps1, Gen.hostOps1_1] c main_v61)
          (Gen.V m c main_v37) (m ((c : Thread nD τ).loc main_arg3)) (m ((c : Thread nD τ).loc main_arg14))
          (m ((c : Thread nD τ).loc main_arg15)) (m ((c : Thread nD τ).loc main_arg16)) (m ((c : Thread nD τ).loc main_arg17))
          (m ((c : Thread nD τ).loc main_arg18)) := by
  rw [tail_eq, tail_eq, later_v93,
    X0_of_ne m c main_v37 (by decide),
    X0_arg3,
    X0_of_ne m c main_arg14 (by decide), Gen.V_main_arg14,
    X0_of_ne m c main_arg15 (by decide), Gen.V_main_arg15,
    X0_of_ne m c main_arg16 (by decide), Gen.V_main_arg16,
    X0_of_ne m c main_arg17 (by decide), Gen.V_main_arg17,
    X0_of_ne m c main_arg18 (by decide), Gen.V_main_arg18]

end

end Cert.PairScore

end
-- ==== Proof.KernelRun.lean ====
/-
  The idealized kernel's run, read: every result as a function of the launch contents of the arguments.

  The stop probability and stop bit are computed before the region from the new state; the score array is the
  region's array plus the output bias; the message probabilities and message bits are computed after the
  region from the score array and the new state.  The new state, the stop head and the score are named by the
  reference's own stage functions of the arguments (the two programs share those operations), the message
  head by msgDist.
-/
import proofs.«107233_j46076409152346_2_alg».proof.Proof.Gen.KernelIdeal.Frame
import proofs.«107233_j46076409152346_2_alg».proof.Proof.Tail

set_option maxRecDepth 16384

noncomputable section

namespace Cert.PairScore

open Idealize.ShloMosaic Idealize.ShloMosaic.TcCoe
open Idealize.SL Idealize.SL.Sem
open Cert.KernelIdeal Cert.KernelIdeal.Gen

variable (m : (ℓ : Loc nD τ sig) → Buf (Elt Ideal) ℓ)

/-- The new state, from the launch contents of the arguments. -/
def newState (c : Dev nD) : S64x512.Idx → EReal :=
  Cert.ReferenceIdeal.Read.val_main_v37 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))

/-- The stop probability. -/
def stopOf (c : Dev nD) : S64x1.Idx → EReal :=
  Cert.ReferenceIdeal.Read.val_main_v48 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The stop bit. -/
def stopBitOf (c : Dev nD) : S64x1.Idx → EReal :=
  Cert.ReferenceIdeal.Read.val_main_v49 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The score array. -/
def scoreOf (c : Dev nD) : S64x2048.Idx → EReal :=
  score (newState m c) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13))

/-- The message probabilities. -/
def msgOf (c : Dev nD) : S64x64.Idx → EReal :=
  msgDist (scoreOf m c) (newState m c) (m ((c.tc : Thread nD τ).loc main_arg3)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-- After the run the score buffer holds the score array. -/
theorem tail_score (c : Dev nD) :
    (Pipeline.afterTail₀ cfgs (dats m) 0 (V0 m) [hostOps1, hostOps1_1] c main_v61 : S64x2048.Idx → EReal) = scoreOf m c :=
  (tail_v61 m c).trans (congrArg (fun ns => score ns (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13))) (V_v37 m c))

/-- After the run the message buffer holds the message probabilities. -/
theorem tail_msg (c : Dev nD) :
    (Pipeline.afterTail₀ cfgs (dats m) 0 (V0 m) [hostOps1, hostOps1_1] c main_v93 : S64x64.Idx → EReal) = msgOf m c := by
  rw [tail_v93, tail_score, V_v37]
  rfl

set_option maxHeartbeats 1000000 in
/-- THE RUN: every weakly fair execution terminates with the five results at these functions of the arguments,
    and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v49) = stopBitOf m c
      ∧ r.2.mem ((c.tc : Thread nD τ).loc main_v48) = stopOf m c
      ∧ r.2.mem ((c.tc : Thread nD τ).loc main_v94) = Host.roundeven (F := Ideal) (s := S64x64) (φ := .f32) (msgOf m c)
      ∧ r.2.mem ((c.tc : Thread nD τ).loc main_v93) = msgOf m c
      ∧ r.2.mem ((c.tc : Thread nD τ).loc main_v61) = scoreOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
      ((h c).2 main_v49 (Pipeline.mem_restRefs_of main_v49 (by decide) (by decide))).trans ((tail_v49 m c).trans (V_v49 m c)),
      ((h c).2 main_v48 (Pipeline.mem_restRefs_of main_v48 (by decide) (by decide))).trans ((tail_v48 m c).trans (V_v48 m c)),
      ((h c).2 main_v94 (Pipeline.mem_restRefs_of main_v94 (by decide) (by decide))).trans
        ((tail_v94 m c).trans (congrArg (Host.roundeven (F := Ideal) (s := S64x64) (φ := .f32)) (tail_msg m c))),
      ((h c).2 main_v93 (Pipeline.mem_restRefs_of main_v93 (by decide) (by decide))).trans (tail_msg m c),
      ((h c).2 main_v61 (Pipeline.mem_restRefs_of main_v61 (by decide) (by decide))).trans (tail_score m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).1 5).trans (((dats m 0 c).arrAt_in 5 rfl _).trans ((A_eq m c 5).trans (V_main_arg12 m c))),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c)⟩)
    (run_main m ρ)

end Cert.PairScore

end
-- ==== Proof.Algebra.lean ====
/-
  The one algebraic law behind the score kernel, over the extended reals.

  A row of the reference's pair matrix is 512 copies of one number v (an entry of the new state) followed by
  the 512 entries of one class descriptor.  Its product with a row w of the first layer's weights is therefore
      Σ_{c<1024} P c · w c  =  Σ_{j<512} v · w j  +  Σ_{d<512} cd d · w (512 + d),
  and the first sum is v · Σ_j w j when v and every w j are REAL numbers: on the extended reals a factor moves
  across a sum only away from the infinities, so finiteness of v and of the weights is used exactly here.
-/
import Idealize.ShloMosaic.PureOps.Ideal

namespace Cert.PairScore

open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves across a finite sum of reals. -/
theorem mul_sum_real {ι : Type*} [Fintype ι] (v : ℝ) (u : ι → ℝ) :
    ∑ j, (v : EReal) * (u j : EReal) = (v : EReal) * ∑ j, (u j : EReal) := by
  rw [← coe_sum, ← EReal.coe_mul, Finset.mul_sum, coe_sum]
  simp only [EReal.coe_mul]

/-- The same with the finiteness stated as hypotheses on extended reals. -/
theorem mul_sum_finite {ι : Type*} [Fintype ι] (v : EReal) (hv : ∃ r : ℝ, v = r) (w : ι → EReal)
    (hw : ∀ j, ∃ r : ℝ, w j = r) : ∑ j, v * w j = v * ∑ j, w j := by
  obtain ⟨r, rfl⟩ := hv
  choose u hu using hw
  simp only [hu]
  exact mul_sum_real r u

/-- A pair row against a weight row: the constant half factors out, the descriptor half stays a dot product. -/
theorem pair_row (v : EReal) (hv : ∃ r : ℝ, v = r) (w : Fin (512 + 512) → EReal) (hw : ∀ c, ∃ r : ℝ, w c = r)
    (P : Fin (512 + 512) → EReal) (cd : Fin 512 → EReal)
    (hl : ∀ j : Fin 512, P (Fin.castAdd 512 j) = v) (hr : ∀ d : Fin 512, P (Fin.natAdd 512 d) = cd d) :
    ∑ c, P c * w c
      = v * (∑ j : Fin 512, w (Fin.castAdd 512 j)) + ∑ d : Fin 512, cd d * w (Fin.natAdd 512 d) := by
  rw [Fin.sum_univ_add]
  simp only [hl, hr]
  rw [mul_sum_finite v hv _ (fun j => hw _)]

end Cert.PairScore
-- ==== Proof.RefScore.lean ====
/-
  The reference's score array, read index by index.

  The reference builds a pair matrix of 64 · 2048 rows and 1024 columns: row R = b · 2048 + k holds, in its first
  512 columns, the new state's entry (b, k / 4) (the state broadcast along a new last axis of extent 2048 and then
  reshaped row-major, so that the flat position R · 512 + c = b · 1048576 + k · 512 + c falls in state column
  (k · 512 + c) / 2048 = k / 4 for every c < 512), and in its last 512 columns the descriptor of class k.  The
  first layer multiplies this row with each row h of the weights, adds the bias and rectifies; the second layer
  is a dot product with the output weights plus the output bias.  By the pair-row law the 1024-term product
  splits into the state entry times a row sum plus a 512-term dot product with the descriptor, which is the score
  of Proof/Spec.lean.
-/
import proofs.«107233_j46076409152346_2_alg».proof.Proof.Gen.ReferenceIdeal.Read
import proofs.«107233_j46076409152346_2_alg».proof.Proof.Spec
import proofs.«107233_j46076409152346_2_alg».proof.Proof.Algebra
import Idealize.ShloMosaic.Lib.ValueIdx
import Idealize.ShloMosaic.Lib.Pipeline.Value
import Idealize.ShloMosaic.PureOps.Ideal.Laws

noncomputable section

namespace Cert.PairScore

open Idealize.ShloMosaic Idealize.ShloMosaic.ValueIdx Cert.ReferenceIdeal Cert.ReferenceIdeal.Read
open scoped BigOperators

/-- The row of the pair matrix that belongs to batch row b and class k. -/
abbrev pairRow (b : Fin 64) (k : Fin 2048) : Fin 131072 :=
  ⟨b.val * 2048 + k.val, by have hb : b.val < 64 := b.isLt; have hk : k.val < 2048 := k.isLt; omega⟩

/-- The state column a class reads: k / 4. -/
abbrev quarter (k : Fin 2048) : Fin 512 := ⟨k.val / 4, by have hk : k.val < 2048 := k.isLt; omega⟩

section
variable (x0 : (⟨S64x64, .f32⟩ : BufTy).Contents (Elt Ideal)) (x1 : (⟨S64x512, .f32⟩ : BufTy).Contents (Elt Ideal))
  (x3 : (⟨S2048x512, .f32⟩ : BufTy).Contents (Elt Ideal)) (x4 : (⟨S1536x64, .f32⟩ : BufTy).Contents (Elt Ideal))
  (x5 : (⟨S1536x512, .f32⟩ : BufTy).Contents (Elt Ideal)) (x6 x7 : (⟨S1536, .f32⟩ : BufTy).Contents (Elt Ideal))
  (x10 : (⟨S512x1024, .f32⟩ : BufTy).Contents (Elt Ideal)) (x11 : (⟨S512, .f32⟩ : BufTy).Contents (Elt Ideal))
  (x12 : (⟨S1x512, .f32⟩ : BufTy).Contents (Elt Ideal)) (x13 : (⟨S1, .f32⟩ : BufTy).Contents (Elt Ideal))

/-- The left half of a pair row: column c < 512 of row b · 2048 + k is the new state at (b, k / 4). -/
theorem pair_left (b : Fin 64) (k : Fin 2048) (c : Fin 512) :
    val_main_v56 (F := Ideal) x0 x1 x3 x4 x5 x6 x7
        (ix2 (n0 := 131072) (n1 := 1024) (pairRow b k) ⟨c.val, by have := c.isLt; omega⟩)
      = val_main_v37 (F := Ideal) x0 x1 x4 x5 x6 x7 (ix2 (n0 := 64) (n1 := 512) b (quarter k)) := by
  have hb : b.val < 64 := b.isLt
  have hk : k.val < 2048 := k.isLt
  have hc : c.val < 512 := c.isLt
  unfold val_main_v56
  refine (concatenate_pair_apply_left (t := S131072x1024) (s₁ := S131072x512) (s₂ := S131072x512) 1 _ _
    _ _ rfl
    (ix2 (n0 := 131072) (n1 := 512) (pairRow b k) c)
    (fun a => match a with
      | ⟨0, _⟩ => rfl
      | ⟨1, _⟩ => rfl)).trans ?_
  rw [val_main_v52_apply, val_main_v51_apply, val_main_v50_apply]
  refine congrArg _ (funext fun a => Fin.ext ?_)
  match a with
  | ⟨0, _⟩ =>
    show ((b.val * 2048 + k.val) * 512 + c.val) / 1048576 = b.val
    omega
  | ⟨1, _⟩ =>
    show ((b.val * 2048 + k.val) * 512 + c.val) / 2048 % 512 = k.val / 4
    omega

/-- The right half of a pair row: column 512 + d of row b · 2048 + k is the descriptor entry (k, d). -/
theorem pair_right (b : Fin 64) (k : Fin 2048) (d : Fin 512) :
    val_main_v56 (F := Ideal) x0 x1 x3 x4 x5 x6 x7
        (ix2 (n0 := 131072) (n1 := 1024) (pairRow b k) ⟨512 + d.val, by have := d.isLt; omega⟩)
      = x3 (ix2 (n0 := 2048) (n1 := 512) k d) := by
  have hb : b.val < 64 := b.isLt
  have hk : k.val < 2048 := k.isLt
  have hd : d.val < 512 := d.isLt
  unfold val_main_v56
  refine (concatenate_pair_apply_right (t := S131072x1024) (s₁ := S131072x512) (s₂ := S131072x512) 1 _ _
    _ _ rfl rfl
    (ix2 (n0 := 131072) (n1 := 512) (pairRow b k) d)
    (fun a => match a with
      | ⟨0, _⟩ => fun _ => rfl
      | ⟨1, _⟩ => fun h => absurd rfl h)
    (by show d.val + 512 = 512 + d.val; omega)).trans ?_
  rw [val_main_v55_apply, val_main_v54_apply, val_main_v53_apply]
  refine congrArg _ (funext fun a => Fin.ext ?_)
  match a with
  | ⟨0, _⟩ =>
    show ((b.val * 2048 + k.val) * 512 + d.val) / 512 % 2048 = k.val
    omega
  | ⟨1, _⟩ =>
    show ((b.val * 2048 + k.val) * 512 + d.val) % 512 = d.val
    omega

/-- The first layer before the bias, at pair row b · 2048 + k and hidden unit h: the 1024-term product of the pair
    row with row h of the weights is the state entry times the row sum of the weights' left half plus the dot
    product of the descriptor with the weights' right half.  The state entry and the weights are real numbers. -/
theorem hidden_pre (hns : ∀ i, ∃ r : ℝ, val_main_v37 (F := Ideal) x0 x1 x4 x5 x6 x7 i = r)
    (hw : ∀ i, ∃ r : ℝ, x10 i = r) (b : Fin 64) (k : Fin 2048) (h : Fin 512) :
    val_main_v58 (F := Ideal) x0 x1 x3 x4 x5 x6 x7 x10 (ix2 (n0 := 131072) (n1 := 512) (pairRow b k) h)
      = val_main_v37 (F := Ideal) x0 x1 x4 x5 x6 x7 (ix2 (n0 := 64) (n1 := 512) b (quarter k))
          * (∑ j : Fin 512, x10 (ix2 (n0 := 512) (n1 := 1024) h ⟨j.val, by have := j.isLt; omega⟩))
        + ∑ d : Fin 512, x3 (ix2 (n0 := 2048) (n1 := 512) k d)
            * x10 (ix2 (n0 := 512) (n1 := 1024) h ⟨512 + d.val, by have := d.isLt; omega⟩) := by
  rw [val_main_v58_apply]
  have e : ∀ c : Fin 1024,
      val_main_v56 (F := Ideal) x0 x1 x3 x4 x5 x6 x7
          (lidx_main_v58 (ix2 (n0 := 131072) (n1 := 512) (pairRow b k) h) c)
        * val_main_v57 (F := Ideal) x10 (ridx_main_v58 (ix2 (n0 := 131072) (n1 := 512) (pairRow b k) h) c)
      = val_main_v56 (F := Ideal) x0 x1 x3 x4 x5 x6 x7 (ix2 (n0 := 131072) (n1 := 1024) (pairRow b k) c)
        * x10 (ix2 (n0 := 512) (n1 := 1024) h c) := by
    intro c
    have el : lidx_main_v58 (ix2 (n0 := 131072) (n1 := 512) (pairRow b k) h) c
        = ix2 (n0 := 131072) (n1 := 1024) (pairRow b k) c :=
      funext fun a => match a with
        | ⟨0, _⟩ => rfl
        | ⟨1, _⟩ => rfl
    have er : idx_main_v57 (ridx_main_v58 (ix2 (n0 := 131072) (n1 := 512) (pairRow b k) h) c)
        = ix2 (n0 := 512) (n1 := 1024) h c :=
      funext fun a => match a with
        | ⟨0, _⟩ => rfl
        | ⟨1, _⟩ => rfl
    rw [val_main_v57_apply, el, er]
  rw [Finset.sum_congr rfl fun c _ => e c]
  exact pair_row (val_main_v37 (F := Ideal) x0 x1 x4 x5 x6 x7 (ix2 (n0 := 64) (n1 := 512) b (quarter k))) (hns _)
    (fun c : Fin (512 + 512) => x10 (ix2 (n0 := 512) (n1 := 1024) h c)) (fun c => hw _)
    (fun c : Fin (512 + 512) =>
      val_main_v56 (F := Ideal) x0 x1 x3 x4 x5 x6 x7 (ix2 (n0 := 131072) (n1 := 1024) (pairRow b k) c))
    (fun d : Fin 512 => x3 (ix2 (n0 := 2048) (n1 := 512) k d))
    (fun j => pair_left x0 x1 x3 x4 x5 x6 x7 b k j) (fun d => pair_right x0 x1 x3 x4 x5 x6 x7 b k d)

/-- The hidden unit h of pair row b · 2048 + k after the bias and the rectifier. -/
theorem hidden_unit (hns : ∀ i, ∃ r : ℝ, val_main_v37 (F := Ideal) x0 x1 x4 x5 x6 x7 i = r)
    (hw : ∀ i, ∃ r : ℝ, x10 i = r) (b : Fin 64) (k : Fin 2048) (h : Fin 512) :
    val_main_v62 (F := Ideal) x0 x1 x3 x4 x5 x6 x7 x10 x11 (ix2 (n0 := 131072) (n1 := 512) (pairRow b k) h)
      = max (val_main_v37 (F := Ideal) x0 x1 x4 x5 x6 x7 (ix2 (n0 := 64) (n1 := 512) b (quarter k))
          * (∑ j : Fin 512, x10 (ix2 (n0 := 512) (n1 := 1024) h ⟨j.val, by have := j.isLt; omega⟩))
        + ((∑ d : Fin 512, x3 (ix2 (n0 := 2048) (n1 := 512) k d)
            * x10 (ix2 (n0 := 512) (n1 := 1024) h ⟨512 + d.val, by have := d.isLt; omega⟩))
          + x11 (ix1 (n := 512) h))) 0 := by
  have e60 : val_main_v60 (F := Ideal) x11 (ix2 (n0 := 131072) (n1 := 512) (pairRow b k) h)
      = x11 (ix1 (n := 512) h) := by
    rw [val_main_v60_apply, val_main_v59_apply]
    exact congrArg x11 (funext fun a => match a with | ⟨0, _⟩ => rfl)
  have e0 : val_main_call1_v1 (F := Ideal) (ix2 (n0 := 131072) (n1 := 512) (pairRow b k) h) = (0 : EReal) := by
    rw [val_main_call1_v1_apply, val_main_call1_v0_apply, val_main_cst_6_apply]
    exact Ideal.ofBits_zero_f32
  rw [val_main_v62_apply, val_main_v61_apply, e0, e60, hidden_pre x0 x1 x3 x4 x5 x6 x7 x10 hns hw b k h]
  show max (0 : EReal) (_ + _ + _) = _
  rw [max_comm, add_assoc]

/-- The reference's score at (b, k): the dot product of the rectified hidden units of pair row b · 2048 + k with
    the output weights, plus the output bias. -/
theorem score_at (b : Fin 64) (k : Fin 2048) :
    val_main_v68 (F := Ideal) x0 x1 x3 x4 x5 x6 x7 x10 x11 x12 x13 (ix2 (n0 := 64) (n1 := 2048) b k)
      = (∑ h : Fin 512,
          val_main_v62 (F := Ideal) x0 x1 x3 x4 x5 x6 x7 x10 x11 (ix2 (n0 := 131072) (n1 := 512) (pairRow b k) h)
            * x12 (ix2 (n0 := 1) (n1 := 512) 0 h))
        + x13 (ix1 (n := 1) 0) := by
  rw [val_main_v68_apply, val_main_v67_apply, val_main_v64_apply, val_main_v66_apply, val_main_v65_apply]
  have e13 : idx_main_v65 (idx_main_v66 (idx_main_v68 (ix2 (n0 := 64) (n1 := 2048) b k))) = ix1 (n := 1) 0 :=
    funext fun a => match a with | ⟨0, _⟩ => rfl
  show (∑ h : Fin 512, _) + x13 _ = _
  rw [e13]
  refine congrArg (· + x13 (ix1 (n := 1) 0)) (Finset.sum_congr rfl fun h _ => ?_)
  have el : lidx_main_v64 (idx_main_v68 (ix2 (n0 := 64) (n1 := 2048) b k)) h
      = ix2 (n0 := 131072) (n1 := 512) (pairRow b k) h :=
    funext fun a => match a with
      | ⟨0, _⟩ => Fin.ext (Nat.div_one _)
      | ⟨1, _⟩ => rfl
  have er : idx_main_v63 (ridx_main_v64 (idx_main_v68 (ix2 (n0 := 64) (n1 := 2048) b k)) h)
      = ix2 (n0 := 1) (n1 := 512) 0 h :=
    funext fun a => match a with
      | ⟨0, _⟩ => rfl
      | ⟨1, _⟩ => rfl
  rw [val_main_v63_apply, el, er]

end

/-- THE REFERENCE'S SCORE: the array the reference returns is the score of Proof/Spec.lean of the new state, the
    class descriptors, the first layer's weights and bias and the second layer's weights and bias — provided the
    new state and the first layer's weights are real numbers (a factor moves across a sum only then). -/
theorem ref_score (x0 : (⟨S64x64, .f32⟩ : BufTy).Contents (Elt Ideal)) (x1 : (⟨S64x512, .f32⟩ : BufTy).Contents (Elt Ideal))
    (x3 : (⟨S2048x512, .f32⟩ : BufTy).Contents (Elt Ideal)) (x4 : (⟨S1536x64, .f32⟩ : BufTy).Contents (Elt Ideal))
    (x5 : (⟨S1536x512, .f32⟩ : BufTy).Contents (Elt Ideal)) (x6 x7 : (⟨S1536, .f32⟩ : BufTy).Contents (Elt Ideal))
    (x10 : (⟨S512x1024, .f32⟩ : BufTy).Contents (Elt Ideal)) (x11 : (⟨S512, .f32⟩ : BufTy).Contents (Elt Ideal))
    (x12 : (⟨S1x512, .f32⟩ : BufTy).Contents (Elt Ideal)) (x13 : (⟨S1, .f32⟩ : BufTy).Contents (Elt Ideal))
    (hns : ∀ i, ∃ r : ℝ, val_main_v37 (F := Ideal) x0 x1 x4 x5 x6 x7 i = r) (hw : ∀ i, ∃ r : ℝ, x10 i = r) :
    val_main_v68 (F := Ideal) x0 x1 x3 x4 x5 x6 x7 x10 x11 x12 x13
      = score (val_main_v37 (F := Ideal) x0 x1 x4 x5 x6 x7) x3 x10 x11 x12 x13 := by
  funext i
  obtain ⟨b, k, rfl⟩ : ∃ (b : Fin 64) (k : Fin 2048), i = ix2 (n0 := 64) (n1 := 2048) b k :=
    ⟨i 0, i 1, eq_ix2 (n0 := 64) (n1 := 2048) i⟩
  rw [score_at]
  unfold score rawScore unit rep4 descT leftSum rowOf
  refine congrArg (· + x13 (ix1 (n := 1) 0)) (Finset.sum_congr rfl fun h _ => ?_)
  rw [hidden_unit x0 x1 x3 x4 x5 x6 x7 x10 x11 hns hw]

end Cert.PairScore

end
-- ==== Proof.Finite.lean ====
/-
  Finiteness of the gated state.  The new state is (1 - z) · n + z · h with z a logistic value, n a hyperbolic
  tangent and h an entry of the input state.  On the extended reals the logistic 1 / (1 + e^{-x}) is a real
  number in [0, 1] for EVERY x (at -∞ it is 1 / ∞ = 0, at +∞ it is 1 / 1), and tanh is real for every x
  (-1 and 1 at the infinities); so the new state is real as soon as h is.
-/
import Idealize.ShloMosaic.PureOps.Ideal

noncomputable section

namespace Cert.PairScore

open Idealize.ShloMosaic

/-- The pattern of 1.0 denotes 1. -/
theorem ofBits_one : Ideal.ofBits .f32 0x3F800000#32 = 1 := by
  simp [Ideal.ofBits, Ideal.ieee, -EReal.coe_mul]; norm_num

/-- tanh is real everywhere on the extended reals. -/
theorem tanh_real (x : EReal) : ∃ r : ℝ, Ideal.tanh x = r := by
  induction x using EReal.rec with
  | bot => exact ⟨-1, rfl⟩
  | top => exact ⟨1, rfl⟩
  | coe r => exact ⟨Real.tanh r, rfl⟩

/-- The logistic function is real everywhere on the extended reals. -/
theorem logistic_real (x : EReal) : ∃ r : ℝ, Ideal.div 1 (1 + Ideal.exp (-x)) = r := by
  induction x using EReal.rec with
  | bot =>
    refine ⟨0, ?_⟩
    have e : (1 : EReal) + Ideal.exp (-(⊥ : EReal)) = ⊤ := by
      rw [EReal.neg_bot]; show (1 : EReal) + ⊤ = ⊤; exact EReal.add_top_of_ne_bot (by decide)
    rw [e]; unfold Ideal.div; rw [if_neg EReal.top_ne_zero, EReal.inv_top, mul_zero]; rfl
  | top =>
    refine ⟨1, ?_⟩
    have e : (1 : EReal) + Ideal.exp (-(⊤ : EReal)) = 1 := by
      rw [EReal.neg_top]; show (1 : EReal) + 0 = 1; exact add_zero _
    rw [e]; unfold Ideal.div; rw [if_neg one_ne_zero, inv_one, mul_one]; rfl
  | coe r =>
    refine ⟨1 / (1 + Real.exp (-r)), ?_⟩
    have hpos : (0 : ℝ) < 1 + Real.exp (-r) := by positivity
    have e : (1 : EReal) + Ideal.exp (-(r : EReal)) = ((1 + Real.exp (-r) : ℝ) : EReal) := by
      rw [← EReal.coe_neg]; rfl
    rw [e, Ideal.div_coe hpos.ne', one_mul]

/-- The gated combination of real numbers is real. -/
theorem gate_real (z n h : EReal) (hz : ∃ r : ℝ, z = r) (hn : ∃ r : ℝ, n = r) (hh : ∃ r : ℝ, h = r) :
    ∃ r : ℝ, (1 - z) * n + z * h = r := by
  obtain ⟨a, rfl⟩ := hz
  obtain ⟨b, rfl⟩ := hn
  obtain ⟨c, rfl⟩ := hh
  exact ⟨(1 - a) * b + a * c, by push_cast; rfl⟩

end Cert.PairScore

end
-- ==== Proof.FiniteIn.lean ====
/-
  Real numbers in, real numbers out.

  Two facts about the values the two programs are given.  First, the new state (1 - z) · n + z · h, with z a
  logistic value 1 / (1 + e^{-x}), n a hyperbolic tangent and h an entry of the input state, is a real number
  at every index as soon as the input state is: the logistic and the hyperbolic tangent are real at every
  extended real.  Second, the precondition — at every argument array, every entry has absolute value below
  +∞ — says exactly that every entry of every argument is a real number.
-/
import proofs.«107233_j46076409152346_2_alg».proof.Defs
import proofs.«107233_j46076409152346_2_alg».proof.Proof.Gen.ReferenceIdeal.Read
import proofs.«107233_j46076409152346_2_alg».proof.Proof.Gen.Pre_finite_inputs
import proofs.«107233_j46076409152346_2_alg».proof.Proof.Finite
import Idealize.ShloMosaic.Lib.ValueIdx
import Idealize.ShloMosaic.Lib.ReduceAll

noncomputable section

namespace Cert.PairScore

open Idealize.ShloMosaic Idealize.ShloMosaic.ValueIdx Cert.ReferenceIdeal Cert.ReferenceIdeal.Read

/-! ## The new state is real -/

/-- The new state at an index, read through its pointwise operations: with w the number the pattern of 1.0
    denotes, x the update gate's pre-activation and y the candidate's, it is
    (w - w / (w + e^{-x})) · tanh y + (w / (w + e^{-x})) · h. -/
theorem new_state_apply (x0 : (⟨S64x64, .f32⟩ : BufTy).Contents (Elt Ideal)) (x1 : (⟨S64x512, .f32⟩ : BufTy).Contents (Elt Ideal))
    (x4 : (⟨S1536x64, .f32⟩ : BufTy).Contents (Elt Ideal)) (x5 : (⟨S1536x512, .f32⟩ : BufTy).Contents (Elt Ideal))
    (x6 x7 : (⟨S1536, .f32⟩ : BufTy).Contents (Elt Ideal)) (i : S64x512.Idx) :
    val_main_v37 (F := Ideal) x0 x1 x4 x5 x6 x7 i
      = (Ideal.ofBits .f32 0x3F800000#32
            - Ideal.div (Ideal.ofBits .f32 0x3F800000#32)
                (Ideal.ofBits .f32 0x3F800000#32 + Ideal.exp (-(val_main_v23 (F := Ideal) x0 x1 x4 x5 x6 x7 i))))
          * Ideal.tanh (val_main_v31 (F := Ideal) x0 x1 x4 x5 x6 x7 i)
        + Ideal.div (Ideal.ofBits .f32 0x3F800000#32)
            (Ideal.ofBits .f32 0x3F800000#32 + Ideal.exp (-(val_main_v23 (F := Ideal) x0 x1 x4 x5 x6 x7 i)))
          * x1 i := by
  rw [val_main_v37_apply, val_main_v35_apply, val_main_v36_apply, val_main_v34_apply, val_main_v32_apply,
    val_main_v33_apply, val_main_cst_3_apply, val_main_v29_apply, val_main_v28_apply, val_main_cst_2_apply,
    val_main_v27_apply, val_main_v26_apply, val_main_cst_1_apply, val_main_v25_apply, val_main_v24_apply]
  rfl

/-- THE NEW STATE IS REAL at every index once the input state is. -/
theorem new_state_real (x0 : (⟨S64x64, .f32⟩ : BufTy).Contents (Elt Ideal)) (x1 : (⟨S64x512, .f32⟩ : BufTy).Contents (Elt Ideal))
    (x4 : (⟨S1536x64, .f32⟩ : BufTy).Contents (Elt Ideal)) (x5 : (⟨S1536x512, .f32⟩ : BufTy).Contents (Elt Ideal))
    (x6 x7 : (⟨S1536, .f32⟩ : BufTy).Contents (Elt Ideal)) (h1 : ∀ i, ∃ r : ℝ, x1 i = r) :
    ∀ i, ∃ r : ℝ, val_main_v37 (F := Ideal) x0 x1 x4 x5 x6 x7 i = r := by
  intro i
  rw [new_state_apply, ofBits_one]
  exact gate_real _ _ _ (logistic_real _) (tanh_real _) (h1 i)

/-! ## The precondition gives real inputs -/

/-- The shape with no axes has one index. -/
instance : Subsingleton Cert.Pre_finite_inputs.S_.Idx := ⟨fun _ _ => funext fun d => d.elim0⟩

/-- The pattern 0x7F800000 denotes +∞. -/
theorem inf_pattern : Ideal.ofBits .f32 0x7F800000#32 = ⊤ := by
  simp [Ideal.ofBits, Ideal.ieee]

/-- An extended real whose absolute value max(x, -x) is below +∞ is a real number. -/
theorem real_of_abs_lt_top (x : EReal) (h : Ideal.cmp .olt (max x (-x)) ⊤ = 1#1) : ∃ r : ℝ, x = r := by
  induction x using EReal.rec with
  | bot => exact absurd h (by simp [Ideal.cmp])
  | top => exact absurd h (by simp [Ideal.cmp])
  | coe r => exact ⟨r, rfl⟩

/-- One conjunct of the precondition: if the conjunction over all indices of "|a| < +∞" is 1, every entry
    of a is a real number. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant Cert.Pre_finite_inputs.S_ .f32 0x7F800000#32)))
          (constantI Cert.Pre_finite_inputs.S_ 1 1#1) hr hu ix0 = 1#1) :
    ∀ i, ∃ r : ℝ, a i = r := by
  intro i
  have e1 := Host.reduce_andi_all _ _ hr hu ix0 e i
  have e2 : Ideal.cmp .olt (max (a i) (-(a i))) (Ideal.ofBits .f32 0x7F800000#32) = 1#1 := e1
  rw [inf_pattern] at e2
  exact real_of_abs_lt_top _ e2

/-- THE PRECONDITION GIVES REAL INPUTS: if the conjunction, over the nineteen argument arrays, of "every entry
    has absolute value below +∞" is 1, then every entry of the state, of the class descriptors, of the pair
    weights, of the first layer's bias, of the output weights and of the output bias is a real number. -/
theorem pre_real [hP : Cert.Pre_finite_inputs.Facts]
    (a0 : FVec Ideal Cert.Pre_finite_inputs.S64x64 .f32) (a1 a2 : FVec Ideal Cert.Pre_finite_inputs.S64x512 .f32)
    (a3 : FVec Ideal Cert.Pre_finite_inputs.S2048x512 .f32) (a4 : FVec Ideal Cert.Pre_finite_inputs.S1536x64 .f32)
    (a5 : FVec Ideal Cert.Pre_finite_inputs.S1536x512 .f32) (a6 a7 : FVec Ideal Cert.Pre_finite_inputs.S1536 .f32)
    (a8 : FVec Ideal Cert.Pre_finite_inputs.S1x512 .f32) (a9 : FVec Ideal Cert.Pre_finite_inputs.S1 .f32)
    (a10 : FVec Ideal Cert.Pre_finite_inputs.S512x1024 .f32) (a11 : FVec Ideal Cert.Pre_finite_inputs.S512 .f32)
    (a12 : FVec Ideal Cert.Pre_finite_inputs.S1x512 .f32) (a13 : FVec Ideal Cert.Pre_finite_inputs.S1 .f32)
    (a14 : FVec Ideal Cert.Pre_finite_inputs.S512x512 .f32) (a15 : FVec Ideal Cert.Pre_finite_inputs.S512 .f32)
    (a16 : FVec Ideal Cert.Pre_finite_inputs.S512x512 .f32) (a17 : FVec Ideal Cert.Pre_finite_inputs.S64x512 .f32)
    (a18 : FVec Ideal Cert.Pre_finite_inputs.S64 .f32)
    (h : Cert.Pre_finite_inputs.fn (F := Ideal) a0 a1 a2 a3 a4 a5 a6 a7 a8 a9 a10 a11 a12 a13 a14 a15 a16 a17 a18
          = (fun _ => 1#1)) :
    (∀ i, ∃ r : ℝ, a1 i = r) ∧ (∀ i, ∃ r : ℝ, a10 i = r) ∧ (∀ i, ∃ r : ℝ, a3 i = r) ∧ (∀ i, ∃ r : ℝ, a11 i = r)
      ∧ (∀ i, ∃ r : ℝ, a12 i = r) ∧ (∀ i, ∃ r : ℝ, a13 i = r) := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  simp only [andi, IntOp.andi_eq_one] at e
  obtain ⟨⟨⟨⟨⟨⟨⟨⟨⟨⟨⟨⟨⟨⟨⟨⟨⟨⟨r0, r1⟩, r2⟩, r3⟩, r4⟩, r5⟩, r6⟩, r7⟩, r8⟩, r9⟩, r10⟩, r11⟩, r12⟩, r13⟩, r14⟩, r15⟩, r16⟩, r17⟩, r18⟩ := e
  exact ⟨all_real a1 _ _ _ r1, all_real a10 _ _ _ r10, all_real a3 _ _ _ r3, all_real a11 _ _ _ r11,
    all_real a12 _ _ _ r12, all_real a13 _ _ _ r13⟩

end Cert.PairScore

end
-- ==== Proof.lean ====
/-
  The certificate of the pair-score kernel against its reference.

  Both programs compute the new state and the stop head with the same operations.  The reference then forms,
  for every batch row b and class k, the 1024-wide pair row — 512 copies of new_state[b, k / 4] followed by
  descriptor k — multiplies it by the first layer's weights, rectifies, and contracts with the second layer:
  a score.  The kernel computes the same score tile by tile as
      Σ_h max( s · L[h] + ( Σ_d c[k,d] · T[d,h] + β[h] ), 0 ) · u[h],
  with L the row sums of the state half of the weights.  The two agree because a REAL factor moves across a
  finite sum of reals (Proof/Algebra.lean); the new state is real because a logistic value and a hyperbolic
  tangent are real everywhere on the extended reals and the input state is finite (Proof/Finite.lean,
  Proof/FiniteIn.lean), and the weights are finite by the precondition.  Everything after the score — softmax,
  the descriptor average, the message head — is the same function of the score and the new state in both
  programs (Proof/Tail.lean).  The three frames are the generated ones; the idealization rewrote nothing.
-/
import proofs.«107233_j46076409152346_2_alg».proof.Defs
import proofs.«107233_j46076409152346_2_alg».proof.Proof.Gen.Kernel
import proofs.«107233_j46076409152346_2_alg».proof.Proof.Gen.Kernel.Skeleton
import proofs.«107233_j46076409152346_2_alg».proof.Proof.Gen.Kernel.Loops
import proofs.«107233_j46076409152346_2_alg».proof.Proof.Gen.Kernel.Launch
import proofs.«107233_j46076409152346_2_alg».proof.Proof.Gen.Kernel.Points
import proofs.«107233_j46076409152346_2_alg».proof.Proof.Gen.Kernel.Frame
import proofs.«107233_j46076409152346_2_alg».proof.Proof.Gen.KernelIdeal
import proofs.«107233_j46076409152346_2_alg».proof.Proof.Gen.KernelIdeal.Skeleton
import proofs.«107233_j46076409152346_2_alg».proof.Proof.Gen.KernelIdeal.Loops
import proofs.«107233_j46076409152346_2_alg».proof.Proof.Gen.KernelIdeal.Launch
import proofs.«107233_j46076409152346_2_alg».proof.Proof.Gen.KernelIdeal.Points
import proofs.«107233_j46076409152346_2_alg».proof.Proof.Gen.KernelIdeal.Frame
import proofs.«107233_j46076409152346_2_alg».proof.Proof.Gen.ReferenceIdeal
import proofs.«107233_j46076409152346_2_alg».proof.Proof.Gen.Pre_finite_inputs
import proofs.«107233_j46076409152346_2_alg».proof.Proof.Gen.ReferenceIdeal.Run
import proofs.«107233_j46076409152346_2_alg».proof.Proof.Gen.ReferenceIdeal.Read
import proofs.«107233_j46076409152346_2_alg».proof.Proof.KernelRun
import proofs.«107233_j46076409152346_2_alg».proof.Proof.RefScore
import proofs.«107233_j46076409152346_2_alg».proof.Proof.FiniteIn
import Idealize.ShloMosaic.Adequacy
import Idealize.ShloMosaic.Init

noncomputable section

namespace Cert.Proof

open Idealize.ShloMosaic Idealize.ShloMosaic.TcCoe Idealize.SL.Sem

/-- The printed kernel runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its generated run with the results dropped. -/
theorem frame_reference : Cert.frame_ReferenceIdeal := fun m ρ _ =>
  (θ_run Cert.ReferenceIdeal.defs _ _).mono (fun _ h c => (h c).2.2.2.2.2)
    (Cert.ReferenceIdeal.Value.run (F := Ideal) m ρ)

/-- The idealization rewrote no operation. -/
theorem preserves : Cert.preserves_Kernel_KernelIdeal := trivial

set_option maxHeartbeats 2000000 in
/-- From memories agreeing on the arguments both idealized programs end with the same five results: the stop
    bit, the stop probability, the message bits, the message probabilities and the score array. -/
theorem algebraic : Cert.algebraic_KernelIdeal_ReferenceIdeal := by
  intro m ρ m' ρ' hpre hagree
  refine ⟨_, _, _, _, _, Cert.PairScore.kernel_run m ρ, ?_⟩
  refine (θ_run Cert.ReferenceIdeal.defs _ _).mono (fun r h c => ?_)
    (Cert.ReferenceIdeal.Value.run (F := Ideal) m' ρ')
  obtain ⟨h49, h48, h101, h100, h68, hargs⟩ := h c
  obtain ⟨g0, g1, g2, g3, g4, g5, g6, g7, g8, g9, g10, g11, g12, g13, g14, g15, g16, g17, g18⟩ := hagree c
  obtain ⟨f1, f10, -⟩ := Cert.PairScore.pre_real _ _ _ _ _ _ _ _ _ _ _ _ _ _ _ _ _ _ _ (hpre c)
  have hns := Cert.PairScore.new_state_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) f1
  have e68 : Cert.ReferenceIdeal.Value.res_main_v68 m' c = Cert.PairScore.scoreOf m c := by
    rw [Cert.ReferenceIdeal.Read.val_main_v68_eq, g0, g1, g3, g4, g5, g6, g7, g10, g11, g12, g13]
    exact Cert.PairScore.ref_score _ _ _ _ _ _ _ _ _ _ _ hns f10
  have e100 : Cert.ReferenceIdeal.Value.res_main_v100 m' c = Cert.PairScore.msgOf m c := by
    rw [Cert.ReferenceIdeal.Read.val_main_v100_eq, Cert.PairScore.stage_v100,
      ← Cert.ReferenceIdeal.Read.val_main_v68_eq, e68, g0, g1, g3, g4, g5, g6, g7, g14, g15, g16, g17, g18]
    rfl
  refine ⟨?_, ?_, ?_, ?_, ?_, hargs⟩
  · rw [h49, Cert.ReferenceIdeal.Read.val_main_v49_eq, g0, g1, g4, g5, g6, g7, g8, g9]; rfl
  · rw [h48, Cert.ReferenceIdeal.Read.val_main_v48_eq, g0, g1, g4, g5, g6, g7, g8, g9]; rfl
  · rw [h101, Cert.ReferenceIdeal.Read.val_main_v101_eq, Cert.PairScore.stage_v101,
      ← Cert.ReferenceIdeal.Read.val_main_v100_eq, e100]
  · rw [h100, e100]
  · rw [h68, e68]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
